-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S256x128 : Shape := ⟨2, ![256, 128]⟩
abbrev S256 : Shape := ⟨1, ![256]⟩
abbrev S256x256 : Shape := ⟨2, ![256, 256]⟩
abbrev S40x256 : Shape := ⟨2, ![40, 256]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S40x256 : S_.BroadcastsInDim S40x256 (![] : Fin 0 → Fin S40x256.rank)
  reducesTo_S40x256_S_d0_1 : S40x256.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x256 .f32) (main_arg9 : FVec F S40 .f32) (main_arg10 : FVec F S40x256 .f32) (main_v33 : IVec S_ 1) : IVec S_ 1 :=
  let main_v34 : FVec F S40x256 .f32 := Host.absf main_arg8
  let main_cst_12 : FVec F S_ .f32 := constant S_ .f32 0x7F800000#32
  let main_v35 : FVec F S40x256 .f32 := broadcastInDim S40x256 ![] bcast_S_S40x256 main_cst_12
  let main_v36 : IVec S40x256 1 := cmpf .olt main_v34 main_v35
  let main_c_13 : IVec S_ 1 := constantI S_ 1 1#1
  let main_v37 : IVec S_ 1 := (fun x v => Host.reduce IntOp.andi x v reducesTo_S40x256_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : FVec F S40x256 .f32 := Host.absf main_arg10
  let main_cst_16 : FVec F S_ .f32 := constant S_ .f32 0x7F800000#32
  let main_v45 : FVec F S40x256 .f32 := broadcastInDim S40x256 ![] bcast_S_S40x256 main_cst_16
  let main_v46 : IVec S40x256 1 := cmpf .olt main_v44 main_v45
  let main_c_17 : IVec S_ 1 := constantI S_ 1 1#1
  let main_v47 : IVec S_ 1 := (fun x v => Host.reduce IntOp.andi x v reducesTo_S40x256_S_d0_1 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S40x256 .f32) (main_arg9 : FVec F S40 .f32) (main_arg10 : FVec F S40x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S256x128 .f32) (main_arg3 : FVec F S256 .f32) (main_arg4 : FVec F S256x128 .f32) (main_arg5 : FVec F S256x256 .f32) (main_arg6 : FVec F S256 .f32) (main_arg7 : FVec F S256x256 .f32) (main_arg8 : FVec F S40x256 .f32) (main_arg9 : FVec F S40 .f32) (main_arg10 : FVec F S40x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S256x128 : Shape := ⟨2, ![256, 128]⟩
abbrev S256 : Shape := ⟨1, ![256]⟩
abbrev S256x256 : Shape := ⟨2, ![256, 256]⟩
abbrev S40x256 : Shape := ⟨2, ![40, 256]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S128x256 : Shape := ⟨2, ![128, 256]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S600000x256 : Shape := ⟨2, ![600000, 256]⟩
abbrev S256x40 : Shape := ⟨2, ![256, 40]⟩
abbrev S1x40 : Shape := ⟨2, ![1, 40]⟩
abbrev S50000x40 : Shape := ⟨2, ![50000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 102
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S40x256, .f32⟩
  | .hbm, ⟨9, _⟩ => ⟨S40, .f32⟩
  | .hbm, ⟨10, _⟩ => ⟨S40x256, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S50000, .f32⟩
  | .hbm, ⟨32, _⟩ => ⟨S600000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x256, .f32⟩
  | .hbm, ⟨41, _⟩ => ⟨S128x256, .f32⟩
  | .hbm, ⟨42, _⟩ => ⟨S1x256, .f32⟩
  | .hbm, ⟨43, _⟩ => ⟨S50000x256, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x256, .f32⟩
  | .hbm, ⟨53, _⟩ => ⟨S_, .f32⟩
  | .hbm, ⟨54, _⟩ => ⟨S50000x256, .f32⟩
  | .hbm, ⟨55, _⟩ => ⟨S600000x1, .i32⟩
  | .hbm, ⟨56, _⟩ => ⟨S50000x256, .f32⟩
  | .hbm, ⟨57, _⟩ => ⟨S_, .f32⟩
  | .hbm, ⟨58, _⟩ => ⟨S600000, .f32⟩
  | .hbm, ⟨59, _⟩ => ⟨S_, .f32⟩
  | .hbm, ⟨60, _⟩ => ⟨S50000, .f32⟩
  | .hbm, ⟨61, _⟩ => ⟨S600000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x256, .f32⟩
  | .hbm, ⟨68, _⟩ => ⟨S50000x256, .f32⟩
  | .hbm, ⟨69, _⟩ => ⟨S256x256, .f32⟩
  | .hbm, ⟨70, _⟩ => ⟨S256x256, .f32⟩
  | .hbm, ⟨71, _⟩ => ⟨S1x256, .f32⟩
  | .hbm, ⟨72, _⟩ => ⟨S50000x256, .f32⟩
  | .hbm, ⟨73, _⟩ => ⟨S_, .i32⟩
  | .hbm, ⟨74, _⟩ => ⟨S600000, .i32⟩
  | .hbm, ⟨75, _⟩ => ⟨S600000, .i1⟩
  | .hbm, ⟨76, _⟩ => ⟨S_, .i32⟩
  | .hbm, ⟨77, _⟩ => ⟨S600000, .i32⟩
  | .hbm, ⟨78, _⟩ => ⟨S600000, .i32⟩
  | .hbm, ⟨79, _⟩ => ⟨S600000, .i32⟩
  | .hbm, ⟨80, _⟩ => ⟨S600000x1, .i32⟩
  | .hbm, ⟨81, _⟩ => ⟨S600000x256, .f32⟩
  | .hbm, ⟨82, _⟩ => ⟨S_, .f32⟩
  | .hbm, ⟨83, _⟩ => ⟨S50000x256, .f32⟩
  | .hbm, ⟨84, _⟩ => ⟨S600000x1, .i32⟩
  | .hbm, ⟨85, _⟩ => ⟨S50000x256, .f32⟩
  | .hbm, ⟨86, _⟩ => ⟨S_, .f32⟩
  | .hbm, ⟨87, _⟩ => ⟨S600000, .f32⟩
  | .hbm, ⟨88, _⟩ => ⟨S_, .f32⟩
  | .hbm, ⟨89, _⟩ => ⟨S50000, .f32⟩
  | .hbm, ⟨90, _⟩ => ⟨S600000x1, .i32⟩
  | .hbm, ⟨91, _⟩ => ⟨S50000, .f32⟩
  | .hbm, ⟨92, _⟩ => ⟨S_, .f32⟩
  | .hbm, ⟨93, _⟩ => ⟨S50000, .f32⟩
  | .hbm, ⟨94, _⟩ => ⟨S50000, .f32⟩
  | .hbm, ⟨95, _⟩ => ⟨S50000x1, .f32⟩
  | .hbm, ⟨96, _⟩ => ⟨S50000x256, .f32⟩
  | .hbm, ⟨97, _⟩ => ⟨S50000x256, .f32⟩
  | .hbm, ⟨98, _⟩ => ⟨S256x40, .f32⟩
  | .hbm, ⟨99, _⟩ => ⟨S256x40, .f32⟩
  | .hbm, ⟨100, _⟩ => ⟨S1x40, .f32⟩
  | .hbm, ⟨101, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x40, .f32⟩
  | .local _ .vmem, ⟨23, _⟩ => ⟨S256x40, .f32⟩
  | .local _ .vmem, ⟨24, _⟩ => ⟨S1x40, .f32⟩
  | .local _ .vmem, ⟨25, _⟩ => ⟨S2000x40, .f32⟩
  | .local _ .vmem, ⟨26, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_15 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S40x256_S256x40_1_0 : S40x256.Transposes [1, 0] S256x40
  shapeCasts_S40_S1x40 : S40.ShapeCasts S1x40
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x256_S2000x256_1_0_0_1_n_n_wf : DotDims.WF S2000x256 S256x256 S2000x256 [1] [0] [0] [1] [] []
  dot_S2000x256_S256x40_S2000x40_1_0_0_1_n_n_wf : DotDims.WF S2000x256 S256x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x40.size a ≤ S256x40.size a
  hwx2_2 : ∀ i : grid2.Coords, EltTy.bits .f32 = 32 ∨ (Rect.block (s := S256x40) S256x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x40.size a ≤ S256x40.size a
  hwx2_3 : ∀ i : grid2.Coords, EltTy.bits .f32 = 32 ∨ (Rect.block (s := S256x40) S256x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x40.size a ≤ S50000x40.size a
  hwx2_5 : ∀ i : grid2.Coords, EltTy.bits .f32 = 32 ∨ (Rect.block (s := S50000x40) S2000x40.size (cc2_transform_5 i) (hinb2_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S256x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S256x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S2000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S256x128 : Shape := ⟨2, ![256, 128]⟩
abbrev S256 : Shape := ⟨1, ![256]⟩
abbrev S256x256 : Shape := ⟨2, ![256, 256]⟩
abbrev S40x256 : Shape := ⟨2, ![40, 256]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S600000x256 : Shape := ⟨2, ![600000, 256]⟩
abbrev S256x40 : Shape := ⟨2, ![256, 40]⟩
abbrev S50000x40 : Shape := ⟨2, ![50000, 40]⟩
abbrev S1x40 : Shape := ⟨2, ![1, 40]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x600000, .i32⟩
  | 2 => ⟨S256x128, .f32⟩
  | 3 => ⟨S256, .f32⟩
  | 4 => ⟨S256x128, .f32⟩
  | 5 => ⟨S256x256, .f32⟩
  | 6 => ⟨S256, .f32⟩
  | 7 => ⟨S256x256, .f32⟩
  | 8 => ⟨S40x256, .f32⟩
  | 9 => ⟨S40, .f32⟩
  | 10 => ⟨S40x256, .f32⟩
  | 11 => ⟨S1x600000, .i32⟩
  | 12 => ⟨S600000, .i32⟩
  | 13 => ⟨S1x600000, .i32⟩
  | 14 => ⟨S600000, .i32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000x128, .f32⟩
  | 24 => ⟨S_, .f32⟩
  | 25 => ⟨S50000x128, .f32⟩
  | 26 => ⟨S600000x1, .i32⟩
  | 27 => ⟨S50000x128, .f32⟩
  | 28 => ⟨S_, .f32⟩
  | 29 => ⟨S600000, .f32⟩
  | 30 => ⟨S_, .f32⟩
  | 31 => ⟨S50000, .f32⟩
  | 32 => ⟨S600000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x128, .f32⟩
  | 39 => ⟨S50000x128, .f32⟩
  | 40 => ⟨S128x256, .f32⟩
  | 41 => ⟨S50000x256, .f32⟩
  | 42 => ⟨S1x256, .f32⟩
  | 43 => ⟨S50000x256, .f32⟩
  | 44 => ⟨S50000x256, .f32⟩
  | 45 => ⟨S128x256, .f32⟩
  | 46 => ⟨S50000x256, .f32⟩
  | 47 => ⟨S50000x256, .f32⟩
  | 48 => ⟨S_, .f32⟩
  | 49 => ⟨S50000x256, .f32⟩
  | 50 => ⟨S50000x256, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x256, .f32⟩
  | 60 => ⟨S_, .f32⟩
  | 61 => ⟨S50000x256, .f32⟩
  | 62 => ⟨S600000x1, .i32⟩
  | 63 => ⟨S50000x256, .f32⟩
  | 64 => ⟨S_, .f32⟩
  | 65 => ⟨S600000, .f32⟩
  | 66 => ⟨S_, .f32⟩
  | 67 => ⟨S50000, .f32⟩
  | 68 => ⟨S600000x1, .i32⟩
  | 69 => ⟨S50000, .f32⟩
  | 70 => ⟨S_, .f32⟩
  | 71 => ⟨S50000, .f32⟩
  | 72 => ⟨S50000, .f32⟩
  | 73 => ⟨S50000x1, .f32⟩
  | 74 => ⟨S50000x256, .f32⟩
  | 75 => ⟨S50000x256, .f32⟩
  | 76 => ⟨S256x256, .f32⟩
  | 77 => ⟨S50000x256, .f32⟩
  | 78 => ⟨S1x256, .f32⟩
  | 79 => ⟨S50000x256, .f32⟩
  | 80 => ⟨S50000x256, .f32⟩
  | 81 => ⟨S256x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x256, .f32⟩
  | 96 => ⟨S_, .f32⟩
  | 97 => ⟨S50000x256, .f32⟩
  | 98 => ⟨S600000x1, .i32⟩
  | 99 => ⟨S50000x256, .f32⟩
  | 100 => ⟨S_, .f32⟩
  | 101 => ⟨S600000, .f32⟩
  | 102 => ⟨S_, .f32⟩
  | 103 => ⟨S50000, .f32⟩
  | 104 => ⟨S600000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x256, .f32⟩
  | 111 => ⟨S50000x256, .f32⟩
  | 112 => ⟨S256x40, .f32⟩
  | 113 => ⟨S50000x40, .f32⟩
  | 114 => ⟨S1x40, .f32⟩
  | 115 => ⟨S50000x40, .f32⟩
  | 116 => ⟨S50000x40, .f32⟩
  | 117 => ⟨S256x40, .f32⟩
  | 118 => ⟨S50000x40, .f32⟩
  | 119 => ⟨S50000x40, .f32⟩
  | 120 => ⟨S_, .f32⟩
  | 121 => ⟨S50000, .f32⟩
  | 122 => ⟨S_, .f32⟩
  | 123 => ⟨S50000, .f32⟩
  | 124 => ⟨S50000, .f32⟩
  | 125 => ⟨S50000x1, .f32⟩
  | 126 => ⟨S50000x40, .f32⟩
  | 127 => ⟨S50000x40, .f32⟩
  | _ => ⟨S50000x128, .f32⟩

abbrev hbmTy0_1 (i : Nat) : BufTy := match i % 128 with
  | 0 => ⟨S50000x40, .f32⟩
  | 1 => ⟨S_, .f32⟩
  | 2 => ⟨S50000, .f32⟩
  | 3 => ⟨S50000x1, .f32⟩
  | 4 => ⟨S50000x1, .f32⟩
  | 5 => ⟨S50000x40, .f32⟩
  | 6 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call2_cst : Ref sig .tc := ⟨.hbm, 120, rfl⟩
abbrev main_call2_v0 : Ref sig .tc := ⟨.hbm, 121, rfl⟩
abbrev main_call2_cst_0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_cst_1 : Ref sig .tc := ⟨.hbm, 129, rfl⟩
abbrev main_call2_v7 : Ref sig .tc := ⟨.hbm, 130, rfl⟩
abbrev main_call2_v8 : Ref sig .tc := ⟨.hbm, 131, rfl⟩
abbrev main_call2_v9 : Ref sig .tc := ⟨.hbm, 132, rfl⟩
abbrev main_call2_v10 : Ref sig .tc := ⟨.hbm, 133, rfl⟩
abbrev main_v87 : Ref sig .tc := ⟨.hbm, 134, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  transposes_S40x256_S256x40_1_0 : S40x256.Transposes [1, 0] S256x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []
  dot_S50000x256_S256x40_S50000x40_1_0_0_1_n_n_wf : DotDims.WF S50000x256 S256x40 S50000x40 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.KernelRun.lean ====
/-
  The idealized kernel's run with its result array named.

  The program is three launches of a dense layer over 25 blocks of 2000 rows each, among three stretches of host operations
  (the neighbour aggregation before each layer). Every weakly fair execution terminates without a fault, the argument
  arrays end as launched, and the result array ends holding what the boundary-by-boundary fold of the program leaves in
  it: the third launch's output array as its write-backs leave it.
-/
import proofs.«180029_j1185410974147_1_alg».proof.Proof.Gen.KernelIdeal.Frame

set_option maxRecDepth 16384

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last boundary's
    contents and every argument array as launched. -/
theorem run_result : θ_run defs (onTc (τ := τ) (main (F := F))) ⟨m, fun _ => 0, ρ⟩ (fun r => ∀ c : Dev nD,
      r.2.mem ((c.tc : Thread nD τ).loc main_v72) = W6 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v72 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.Sage.KernelRun

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibDenseBlock.lean ====
/-
  A fused dense layer on a block of rows, read at an entry, on the extended reals.

  The block computes  A · WL + X · WR + b  (and, for a rectified layer, the maximum of that with zero): the two
  matrix products are accumulated into zero matrices from operands first rounded to a narrower float format — at the
  ideal values the rounding is the identity —, they are added, and a one-row matrix `b` is repeated down the rows and
  added.  Entry (p, q) is

      (∑ k, A[p, k] · WL[k, q]  +  ∑ k, X[p, k] · WR[k, q])  +  b[0, q].

  All extents are variables.
-/
import proofs.«180029_j1185410974147_1_alg».proof.Proof.LibLayout

noncomputable section

namespace Cert.LibDenseBlock

open Idealize.ShloMosaic Idealize.ShloMosaic.ValueIdx

/-- Entry (p, q) of  A · WL + X · WR + b : the two contractions over the shared inner extent, then the bias of
    column q. -/
def affine {n d e : ℕ} (A X : FVec Ideal ⟨2, ![n, d]⟩ .f32) (WL WR : FVec Ideal ⟨2, ![d, e]⟩ .f32)
    (b : Fin e → Ideal .f32) (p : Fin n) (q : Fin e) : Ideal .f32 :=
  (∑ k : Fin d, A (ix2 p k) * WL (ix2 k q) + ∑ k : Fin d, X (ix2 p k) * WR (ix2 k q)) + b q

/-- The block's arithmetic as the vector unit spells it — operands rounded to a narrower format, two products into
    zero accumulators, their sum, a one-row bias repeated down the rows and added — is `affine` at every entry.
    The dimension record's own facts (one contracted axis of extent `d`, rows against columns) are hypotheses, closed
    at a literal record by `rfl`. -/
theorem block_affine_apply {r d e : ℕ} {ψ : FTy} (D : DotDims ⟨2, ![r, d]⟩ ⟨2, ![d, e]⟩ ⟨2, ![r, e]⟩)
    (hr : D.contr.rank = 1) (hs : D.contr.size ⟨0, by omega⟩ = d)
    (hlc : D.lhsContracting = [1]) (hrc : D.rhsContracting = [0])
    (hl0 : ∀ j k, (D.lhsIdx j k 0).val = (j 0).val) (hr1 : ∀ j k, (D.rhsIdx j k 1).val = (j 1).val)
    (hψ : ψ.bits < FTy.f32.bits)
    (a x : FVec Ideal ⟨2, ![r, d]⟩ .f32) (wl wr : FVec Ideal ⟨2, ![d, e]⟩ .f32) (b : FVec Ideal ⟨2, ![1, e]⟩ .f32)
    (hb : (⟨2, ![1, e]⟩ : Shape).Broadcasts ⟨2, ![r, e]⟩) (p : Fin r) (q : Fin e) :
    addf (addf (matmul D none (truncf ψ a hψ) (truncf ψ wl hψ) (constant ⟨2, ![r, e]⟩ .f32 0x00000000#32))
          (matmul D none (truncf ψ x hψ) (truncf ψ wr hψ) (constant ⟨2, ![r, e]⟩ .f32 0x00000000#32)))
        (broadcastTo ⟨2, ![r, e]⟩ b hb) (ix2 p q)
      = affine a x wl wr (fun q => b (ix2 (0 : Fin 1) q)) p q := by
  rw [addf_apply, addf_apply,
    Cert.LibLayout.matmul_rows_cols_apply D hr hs hlc hrc hl0 hr1 none (truncf ψ a hψ) (truncf ψ wl hψ) p q,
    Cert.LibLayout.matmul_rows_cols_apply D hr hs hlc hrc hl0 hr1 none (truncf ψ x hψ) (truncf ψ wr hψ) p q,
    broadcastTo_1b_ab_apply b hb p q]
  rfl

end Cert.LibDenseBlock

end
-- ==== Proof.LibHostDot.lean ====
/-
  The host's matrix products read entry by entry on the extended reals: rows against rows (A · Bᵀ) and rows against
  columns (A · B), each entry the sum over the contracted index of the operands' products.
-/
import Idealize.ShloMosaic.Lib.Pipeline.Value
import Idealize.ShloMosaic.Lib.ValueIdx
import Idealize.ShloMosaic.PureOps.Ideal.Laws

namespace Cert.LibHostDot

open Idealize.ShloMosaic Idealize.ShloMosaic.ValueIdx

/-- The host's product of rows with rows: entry `(p, q)` is the sum over `k` of `A[p, k] · B[q, k]`. The record's facts
    (one contracted axis of extent `K`; the free axes' coordinates) are hypotheses, closed at a literal record by `rfl`
    and by unfolding the index functions. -/
theorem dotGeneral_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- The host's product of rows with columns: entry `(p, q)` is the sum over `k` of `A[p, k] · B[k, q]`. -/
theorem dotGeneral_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibHostDot
-- ==== Proof.LibSageLayer.lean ====
/-
  One layer of a mean-aggregating graph convolution, and a row-wise log-softmax, each as the vector unit spells it on a
  block of rows and as the host spells it on the whole matrix, read at an entry on the extended reals.

  The dense layer is  A · WL + X · WR + b  (A the aggregated neighbours, X the nodes' own features, b a one-row bias).
  The vector unit adds the two products first and the bias last; the host adds the bias to the first product and the second
  product last.  Addition of extended reals is commutative and associative, so both are the entry
  (∑ k, A[p,k] · WL[k,q] + ∑ k, X[p,k] · WR[k,q]) + b[0,q]; a rectified layer takes the maximum of that with zero on both
  sides.

  The log-softmax of a row L is  (L t − M) − log ∑ u, exp (L u − M)  with M the row's maximum taken from −∞.  The host takes
  the maximum once more against −∞, which changes nothing, and starts its row sum from zero.

  All extents are variables.
-/
import proofs.«180029_j1185410974147_1_alg».proof.Proof.LibDenseBlock
import proofs.«180029_j1185410974147_1_alg».proof.Proof.LibHostDot
import Idealize.ShloMosaic.Lib.IdealHost
import Idealize.ShloMosaic.PureOps.Reduce

noncomputable section

namespace Cert.LibSageLayer

open Idealize.ShloMosaic Idealize.ShloMosaic.ValueIdx Cert.LibDenseBlock

/-- A coordinate below an extent is itself, or zero when the extent is one. -/
theorem val_eq_ite {n : Nat} (a : Fin n) : a.val = if n = 1 then 0 else a.val := by
  split
  · have := a.isLt; omega
  · rfl

/-- A one-row matrix broadcast down the rows by the host reads, at (p, q), the row's entry q. -/
theorem hostRow_apply {α : Type} {a n : Nat} (b : (⟨2, ![1, n]⟩ : Shape).Idx → α)
    (h4 : (⟨2, ![1, n]⟩ : Shape).BroadcastsInDim ⟨2, ![a, n]⟩ (![0, 1] : Fin 2 → Fin 2)) (p : Fin a) (q : Fin n) :
    broadcastInDim ⟨2, ![a, n]⟩ ![0, 1] h4 b (ix2 p q) = b (ix2 (0 : Fin 1) q) :=
  broadcastInDim_apply _ h4 b (ix2 p q) (ix2 0 q) (fun c => by
    match c with
    | ⟨0, _⟩ => show (0 : Nat) = if (1 : Nat) = 1 then 0 else _; rw [if_pos rfl]
    | ⟨1, _⟩ => exact val_eq_ite (n := n) q)

/-- A vector given a trailing unit axis by the host reads, at (p, 0), the vector at p. -/
theorem hostCol_apply {α : Type} {a : Nat} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v (ix2 p u) (ix1 p) (fun c => by
    match c with
    | ⟨0, _⟩ => exact val_eq_ite (n := a) p)

/-- A column broadcast along the rows by the host reads, at (p, q), the column's entry of row p. -/
theorem hostColRows_apply {α : Type} {a n : Nat} (v : (⟨2, ![a, 1]⟩ : Shape).Idx → α)
    (h : (⟨2, ![a, 1]⟩ : Shape).BroadcastsInDim ⟨2, ![a, n]⟩ (![0, 1] : Fin 2 → Fin 2)) (p : Fin a) (q : Fin n) :
    broadcastInDim ⟨2, ![a, n]⟩ ![0, 1] h v (ix2 p q) = v (ix2 p (0 : Fin 1)) :=
  broadcastInDim_apply _ h v (ix2 p q) (ix2 p 0) (fun c => by
    match c with
    | ⟨0, _⟩ => exact val_eq_ite (n := a) p
    | ⟨1, _⟩ => show (0 : Nat) = if (1 : Nat) = 1 then 0 else _; rw [if_pos rfl])

/-! ## The dense layer -/

/-- The host's spelling of the affine layer — the first product, plus the bias row broadcast down the rows, plus the second
    product — at entry (p, q). -/
theorem hostAffine_apply {N d e : ℕ} (D : DotDims ⟨2, ![N, d]⟩ ⟨2, ![d, e]⟩ ⟨2, ![N, e]⟩)
    (hr : D.contr.rank = 1) (hs : D.contr.size ⟨0, by omega⟩ = d)
    (hlc : D.lhsContracting = [1]) (hrc : D.rhsContracting = [0])
    (hl0 : ∀ j k, (D.lhsIdx j k 0).val = (j 0).val) (hr1 : ∀ j k, (D.rhsIdx j k 1).val = (j 1).val)
    (A X : FVec Ideal ⟨2, ![N, d]⟩ .f32) (WL WR : FVec Ideal ⟨2, ![d, e]⟩ .f32) (B : FVec Ideal ⟨2, ![1, e]⟩ .f32)
    (h4 : (⟨2, ![1, e]⟩ : Shape).BroadcastsInDim ⟨2, ![N, e]⟩ (![0, 1] : Fin 2 → Fin 2)) (p : Fin N) (q : Fin e) :
    addf (addf (Host.dotGeneral D none A WL) (broadcastInDim ⟨2, ![N, e]⟩ ![0, 1] h4 B)) (Host.dotGeneral D none X WR) (ix2 p q)
      = affine A X WL WR (fun q => B (ix2 (0 : Fin 1) q)) p q := by
  rw [addf_apply, addf_apply,
    Cert.LibHostDot.dotGeneral_rows_cols_apply D hr hs hlc hrc hl0 hr1 none A WL p q,
    Cert.LibHostDot.dotGeneral_rows_cols_apply D hr hs hlc hrc hl0 hr1 none X WR p q,
    hostRow_apply B h4 p q]
  exact add_right_comm _ _ _

/-- The host's rectified layer at entry (p, q): the maximum of the affine entry and the zero word's value. -/
theorem hostRelu_apply {N d e : ℕ} (D : DotDims ⟨2, ![N, d]⟩ ⟨2, ![d, e]⟩ ⟨2, ![N, e]⟩)
    (hr : D.contr.rank = 1) (hs : D.contr.size ⟨0, by omega⟩ = d)
    (hlc : D.lhsContracting = [1]) (hrc : D.rhsContracting = [0])
    (hl0 : ∀ j k, (D.lhsIdx j k 0).val = (j 0).val) (hr1 : ∀ j k, (D.rhsIdx j k 1).val = (j 1).val)
    (A X : FVec Ideal ⟨2, ![N, d]⟩ .f32) (WL WR : FVec Ideal ⟨2, ![d, e]⟩ .f32) (B : FVec Ideal ⟨2, ![1, e]⟩ .f32)
    (h4 : (⟨2, ![1, e]⟩ : Shape).BroadcastsInDim ⟨2, ![N, e]⟩ (![0, 1] : Fin 2 → Fin 2))
    (h5 : (⟨0, ![]⟩ : Shape).BroadcastsInDim ⟨2, ![N, e]⟩ (![] : Fin 0 → Fin 2)) (p : Fin N) (q : Fin e) :
    maximumf (addf (addf (Host.dotGeneral D none A WL) (broadcastInDim ⟨2, ![N, e]⟩ ![0, 1] h4 B)) (Host.dotGeneral D none X WR))
        (broadcastInDim ⟨2, ![N, e]⟩ ![] h5 (constant (F := Ideal) ⟨0, ![]⟩ .f32 0x00000000#32)) (ix2 p q)
      = max (affine A X WL WR (fun q => B (ix2 (0 : Fin 1) q)) p q) (Ideal.ofBits .f32 0x00000000#32) := by
  rw [maximumf_apply, hostAffine_apply D hr hs hlc hrc hl0 hr1 A X WL WR B h4 p q, broadcastInDim_scalar_apply h5]
  rfl

/-- The vector unit's rectified block at entry (p, q): the same maximum. -/
theorem kernelRelu_apply {r d e : ℕ} {ψ : FTy} (D : DotDims ⟨2, ![r, d]⟩ ⟨2, ![d, e]⟩ ⟨2, ![r, e]⟩)
    (hr : D.contr.rank = 1) (hs : D.contr.size ⟨0, by omega⟩ = d)
    (hlc : D.lhsContracting = [1]) (hrc : D.rhsContracting = [0])
    (hl0 : ∀ j k, (D.lhsIdx j k 0).val = (j 0).val) (hr1 : ∀ j k, (D.rhsIdx j k 1).val = (j 1).val)
    (hψ : ψ.bits < FTy.f32.bits)
    (a x : FVec Ideal ⟨2, ![r, d]⟩ .f32) (wl wr : FVec Ideal ⟨2, ![d, e]⟩ .f32) (b : FVec Ideal ⟨2, ![1, e]⟩ .f32)
    (hb : (⟨2, ![1, e]⟩ : Shape).Broadcasts ⟨2, ![r, e]⟩) (p : Fin r) (q : Fin e) :
    maximumf (addf (addf (matmul D none (truncf ψ a hψ) (truncf ψ wl hψ) (constant ⟨2, ![r, e]⟩ .f32 0x00000000#32))
          (matmul D none (truncf ψ x hψ) (truncf ψ wr hψ) (constant ⟨2, ![r, e]⟩ .f32 0x00000000#32)))
        (broadcastTo ⟨2, ![r, e]⟩ b hb)) (broadcast ⟨2, ![r, e]⟩ (Scalar.ofBits (F := Ideal) .f32 0x00000000#32)) (ix2 p q)
      = max (affine a x wl wr (fun q => b (ix2 (0 : Fin 1) q)) p q) (Ideal.ofBits .f32 0x00000000#32) := by
  rw [maximumf_apply, block_affine_apply D hr hs hlc hrc hl0 hr1 hψ a x wl wr b hb p q]
  rfl

/-- Two affine entries agree when the rows and columns they read agree. -/
theorem affine_congr {n n' d e : ℕ} (a x : FVec Ideal ⟨2, ![n, d]⟩ .f32) (A X : FVec Ideal ⟨2, ![n', d]⟩ .f32)
    (wl wr WL WR : FVec Ideal ⟨2, ![d, e]⟩ .f32) (b B : Fin e → Ideal .f32) (y : Fin n) (p : Fin n') (q : Fin e)
    (ha : ∀ k, a (ix2 y k) = A (ix2 p k)) (hx : ∀ k, x (ix2 y k) = X (ix2 p k))
    (hwl : ∀ k, wl (ix2 k q) = WL (ix2 k q)) (hwr : ∀ k, wr (ix2 k q) = WR (ix2 k q)) (hb : b q = B q) :
    affine a x wl wr b y q = affine A X WL WR B p q := by
  unfold affine
  rw [hb]
  simp only [ha, hx, hwl, hwr]

/-! ## The row-wise log-softmax -/

/-- The host's logarithm and exponential at an index are the extended reals'. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- A row's maximum, taken from the value of the word 0xFF800000 (−∞). -/
def rowMax {n : ℕ} (L : Fin n → EReal) : EReal := Finset.univ.fold max (Ideal.ofBits .f32 0xFF800000#32) L

/-- The log-softmax of one row L at position t. -/
def lsmRow {n : ℕ} (L : Fin n → EReal) (t : Fin n) : EReal :=
  (L t - rowMax L) - Ideal.log (∑ u : Fin n, Ideal.exp (L u - rowMax L))

/-- The maximum of a start value and a fold of max from that start value is the fold. -/
theorem max_fold_self {n : ℕ} (a : EReal) (L : Fin n → EReal) :
    max a (Finset.univ.fold max a L) = Finset.univ.fold max a L :=
  max_eq_right (Finset.le_fold_max (s := Finset.univ) (f := L) (b := a) a |>.mpr (Or.inl le_rfl))

variable {a b : ℕ}

/-- The vector unit's log-softmax of a block: row maximum from −∞ laid as a column and broadcast, the difference, its
    exponential's row sum from zero laid as a column, the logarithm, broadcast, the difference again. -/
def kernelLsm (Z : FVec Ideal ⟨2, ![a, b]⟩ .f32) (hr : (⟨2, ![a, b]⟩ : Shape).Reduces [1] ⟨1, ![a]⟩) (hφ : FKind.Formats FTy.f32)
    (hm : (0xFF800000#32 : BitVec 32) = 0xFF800000#32) (hz : (0x00000000#32 : BitVec 32) = 0x00000000#32)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  subf (subf Z (broadcastTo ⟨2, ![a, b]⟩ (shapeCast ⟨2, ![a, 1]⟩ (multiReduction .maximumf [1] ⟨1, ![a]⟩ Z 0xFF800000#32 hr hφ hm) hc) hb))
    (broadcastTo ⟨2, ![a, b]⟩ (log (shapeCast ⟨2, ![a, 1]⟩ (multiReduction .add [1] ⟨1, ![a]⟩
      (exp (subf Z (broadcastTo ⟨2, ![a, b]⟩ (shapeCast ⟨2, ![a, 1]⟩ (multiReduction .maximumf [1] ⟨1, ![a]⟩ Z 0xFF800000#32 hr hφ hm) hc) hb)))
      0x00000000#32 hr hφ hz) hc)) hb)

/-- The shifted entry: Z[r,t] less its row's maximum. -/
theorem kernelShift_apply (Z : FVec Ideal ⟨2, ![a, b]⟩ .f32) (hr : (⟨2, ![a, b]⟩ : Shape).Reduces [1] ⟨1, ![a]⟩) (hφ : FKind.Formats FTy.f32)
    (hm : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩) (r : Fin a) (t : Fin b) :
    subf Z (broadcastTo ⟨2, ![a, b]⟩ (shapeCast ⟨2, ![a, 1]⟩ (multiReduction .maximumf [1] ⟨1, ![a]⟩ Z 0xFF800000#32 hr hφ hm) hc) hb) (ix2 r t)
      = Z (ix2 r t) - rowMax (fun u => Z (ix2 r u)) := by
  rw [subf_apply, Cert.LibLayout.broadcastTo_a1_ab_apply, Cert.LibLayout.shapeCast_a_a1_apply, Cert.LibLayout.max_rows_apply]
  rfl

/-- The vector unit's log-softmax at (r, t) is the log-softmax of row r at t. -/
theorem kernelLsm_apply (Z : FVec Ideal ⟨2, ![a, b]⟩ .f32) (hr : (⟨2, ![a, b]⟩ : Shape).Reduces [1] ⟨1, ![a]⟩) (hφ : FKind.Formats FTy.f32)
    (hm : (0xFF800000#32 : BitVec 32) = 0xFF800000#32) (hz : (0x00000000#32 : BitVec 32) = 0x00000000#32)
    (hc : (⟨1, ![a]⟩ : Shape).ShapeCasts ⟨2, ![a, 1]⟩) (hb : (⟨2, ![a, 1]⟩ : Shape).Broadcasts ⟨2, ![a, b]⟩) (r : Fin a) (t : Fin b) :
    kernelLsm Z hr hφ hm hz hc hb (ix2 r t) = lsmRow (fun u => Z (ix2 r u)) t := by
  unfold kernelLsm
  rw [subf_apply, kernelShift_apply, Cert.LibLayout.broadcastTo_a1_ab_apply]
  show _ - Ideal.log (shapeCast ⟨2, ![a, 1]⟩ _ hc (ix2 r (0 : Fin 1))) = _
  rw [Cert.LibLayout.shapeCast_a_a1_apply, Cert.LibLayout.sum_rows_apply]
  unfold lsmRow
  refine congrArg (fun s => (Z (ix2 r t) - rowMax (fun u => Z (ix2 r u))) - Ideal.log s) (Finset.sum_congr rfl fun u _ => ?_)
  show Ideal.exp (subf Z _ (ix2 r u)) = _
  rw [kernelShift_apply]

/-- The host's log-softmax of a matrix: the same, with the row maximum taken once more against −∞ and the row sum started
    from the zero word. -/
def hostLsm (Z : FVec Ideal ⟨2, ![a, b]⟩ .f32) (hR : (⟨2, ![a, b]⟩ : Shape).ReducesTo [1] ⟨1, ![a]⟩) (hu : 0 < (⟨0, ![]⟩ : Shape).numel)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) : FVec Ideal ⟨2, ![a, b]⟩ .f32 :=
  subf (subf Z (broadcastInDim ⟨2, ![a, b]⟩ ![0, 1] h2 (broadcastInDim ⟨2, ![a, 1]⟩ ![0] h1
      (maximumf (broadcastInDim ⟨1, ![a]⟩ ![] h0 (constant (F := Ideal) ⟨0, ![]⟩ .f32 0xFF800000#32))
        (Host.reduce FloatOps.maximumf Z (constant (F := Ideal) ⟨0, ![]⟩ .f32 0xFF800000#32) hR hu)))))
    (broadcastInDim ⟨2, ![a, b]⟩ ![0, 1] h2 (Host.log (broadcastInDim ⟨2, ![a, 1]⟩ ![0] h1
      (Host.reduceAdd (Host.exp (subf Z (broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf Z (constant (F := Ideal) ⟨0, ![]⟩ .f32 0xFF800000#32) hR hu))))))
        (constant (F := Ideal) ⟨0, ![]⟩ .f32 0x00000000#32) hR hu))))

/-- The host's shifted entry. -/
theorem hostShift_apply (Z : FVec Ideal ⟨2, ![a, b]⟩ .f32) (hR : (⟨2, ![a, b]⟩ : Shape).ReducesTo [1] ⟨1, ![a]⟩)
    (hr : (⟨2, ![a, b]⟩ : Shape).Reduces [1] ⟨1, ![a]⟩) (hu : 0 < (⟨0, ![]⟩ : Shape).numel)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (t : Fin b) :
    subf Z (broadcastInDim ⟨2, ![a, b]⟩ ![0, 1] h2 (broadcastInDim ⟨2, ![a, 1]⟩ ![0] h1
      (maximumf (broadcastInDim ⟨1, ![a]⟩ ![] h0 (constant (F := Ideal) ⟨0, ![]⟩ .f32 0xFF800000#32))
        (Host.reduce FloatOps.maximumf Z (constant (F := Ideal) ⟨0, ![]⟩ .f32 0xFF800000#32) hR hu)))) (ix2 r t)
      = Z (ix2 r t) - rowMax (fun u => Z (ix2 r u)) := by
  rw [subf_apply, hostColRows_apply, hostCol_apply, maximumf_apply, broadcastInDim_scalar_apply h0,
    Host.reduce_eq_fold_single FloatOps.maximumf Z _ hR hr hu]
  have hf : (Z ∘ hr.lift (ix1 r)) = fun u : Fin b => Z (ix2 r u) := funext fun u =>
    congrArg Z (funext fun ax => Fin.ext (by match ax with | ⟨0, _⟩ => rfl | ⟨1, _⟩ => rfl))
  refine congrArg (fun m => Z (ix2 r t) - m) ?_
  refine Eq.trans ?_ (max_fold_self (n := b) (Ideal.ofBits .f32 0xFF800000#32) (fun u => Z (ix2 r u)))
  exact congrArg (fun f => max (Ideal.ofBits .f32 0xFF800000#32)
    (Finset.fold max (Ideal.ofBits .f32 0xFF800000#32) f (Finset.univ : Finset (Fin b)))) hf

/-- The host's log-softmax at (r, t) is the log-softmax of row r at t. -/
theorem hostLsm_apply (Z : FVec Ideal ⟨2, ![a, b]⟩ .f32) (hR : (⟨2, ![a, b]⟩ : Shape).ReducesTo [1] ⟨1, ![a]⟩)
    (hr : (⟨2, ![a, b]⟩ : Shape).Reduces [1] ⟨1, ![a]⟩) (hu : 0 < (⟨0, ![]⟩ : Shape).numel)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (t : Fin b) :
    hostLsm Z hR hu h0 h1 h2 (ix2 r t) = lsmRow (fun u => Z (ix2 r u)) t := by
  unfold hostLsm
  rw [subf_apply, hostShift_apply Z hR hr hu h0 h1 h2 r t, hostColRows_apply, hostLog_apply, hostCol_apply,
    hostReduceAdd_apply, Ideal.hostReduceAdd_single hR hr, constant_apply, Ideal.ofBits_zero_f32, zero_add]
  unfold lsmRow
  refine congrArg (fun s => (Z (ix2 r t) - rowMax (fun u => Z (ix2 r u))) - Ideal.log s) ?_
  refine Finset.sum_congr rfl fun (u : Fin b) _ => ?_
  have hl : hr.lift (ix1 r) u = ix2 r u := funext fun ax => Fin.ext (by match ax with | ⟨0, _⟩ => rfl | ⟨1, _⟩ => rfl)
  refine (congrArg _ hl).trans ?_
  exact congrArg Ideal.exp (hostShift_apply Z hR hr hu h0 h1 h2 r u)

end Cert.LibSageLayer

end
-- ==== Proof.Spec.lean ====
/-
  The three-layer mean-aggregating graph network on whole arrays, in the host's spelling.

  With s and d the source and destination node of every edge (the two rows of the edge array), one layer of input h is

      mean h  =  (the sum over the edges into each node of h at the edge's source) / max (number of edges into the node, 1)
      dense   =  mean h · WLᵀ  +  b  +  h · WRᵀ,

  rectified after the first two layers and followed by a row-wise log-softmax after the third. A negative source node
  counts from the end (50000 is added), as indexing an array with it does.
-/
import proofs.«180029_j1185410974147_1_alg».proof.Proof.Gen.ReferenceIdeal
import proofs.«180029_j1185410974147_1_alg».proof.Proof.LibSageLayer

noncomputable section

namespace Cert.Sage.Spec

open Cert.ReferenceIdeal Cert.ReferenceIdeal.Gen Idealize.ShloMosaic Idealize.ShloMosaic.TcCoe Idealize.SL.Sem

/-- An array of 32-bit words, and one of extended reals, of a given shape. -/
abbrev I32 (s : Shape) := IVec s 32
abbrev F32 (s : Shape) := FVec Ideal s .f32

/-- The edges' source nodes: row 0 of the edge array. -/
def src (ei : I32 S2x600000) : I32 S600000 :=
  shapeCast _ (extractStridedSlice S1x600000 ![0, 0] ei slices_S2x600000_S1x600000_0_0) shapeCasts_S1x600000_S600000

/-- The edges' destination nodes: row 1 of the edge array. -/
def dst (ei : I32 S2x600000) : I32 S600000 :=
  shapeCast _ (extractStridedSlice S1x600000 ![1, 0] ei slices_S2x600000_S1x600000_1_0) shapeCasts_S1x600000_S600000

/-- A negative node number counts from the end. -/
def wrap (s : I32 S600000) : I32 S600000 :=
  select (cmpi .slt s (broadcastInDim S600000 ![] bcast_S_S600000 (constantI S_ 32 0#32)))
    (addi s (broadcastInDim S600000 ![] bcast_S_S600000 (constantI S_ 32 50000#32))) s

/-- The number of edges into each node, at least one. -/
def count (d : I32 S600000) : F32 S50000 :=
  maximumf (Host.scatterAdd scatter_S50000_S600000x1_S600000_n_0_0_1
      (broadcastInDim S50000 ![] bcast_S_S50000 (constant S_ .f32 0x00000000#32))
      (broadcastInDim S600000x1 ![0] bcast_S600000_S600000x1_0 d)
      (broadcastInDim S600000 ![] bcast_S_S600000 (constant S_ .f32 0x3F800000#32)))
    (broadcastInDim S50000 ![] bcast_S_S50000 (constant S_ .f32 0x3F800000#32))

/-- The mean over each node's incoming edges of the 128 features at the edge's source. -/
def mean128 (h : F32 S50000x128) (s d : I32 S600000) : F32 S50000x128 :=
  Host.divf (Host.scatterAdd scatter_S50000x128_S600000x1_S600000x128_1_0_0_1
      (broadcastInDim S50000x128 ![] bcast_S_S50000x128 (constant S_ .f32 0x00000000#32))
      (broadcastInDim S600000x1 ![0] bcast_S600000_S600000x1_0 d)
      (Host.gather gather_S50000x128_S600000x1_S600000x128_1_0_n_n_0_1_1128 h
        (broadcastInDim S600000x1 ![0] bcast_S600000_S600000x1_0 (wrap s))))
    (broadcastInDim S50000x128 ![0, 1] bcast_S50000x1_S50000x128_0_1
      (broadcastInDim S50000x1 ![0] bcast_S50000_S50000x1_0 (count d)))

/-- The same mean of 256 features. -/
def mean256 (h : F32 S50000x256) (s d : I32 S600000) : F32 S50000x256 :=
  Host.divf (Host.scatterAdd scatter_S50000x256_S600000x1_S600000x256_1_0_0_1
      (broadcastInDim S50000x256 ![] bcast_S_S50000x256 (constant S_ .f32 0x00000000#32))
      (broadcastInDim S600000x1 ![0] bcast_S600000_S600000x1_0 d)
      (Host.gather gather_S50000x256_S600000x1_S600000x256_1_0_n_n_0_1_1256 h
        (broadcastInDim S600000x1 ![0] bcast_S600000_S600000x1_0 (wrap s))))
    (broadcastInDim S50000x256 ![0, 1] bcast_S50000x1_S50000x256_0_1
      (broadcastInDim S50000x1 ![0] bcast_S50000_S50000x1_0 (count d)))

/-- Layer 1's dense part, rectified: 128 features in, 256 out; the weights already transposed and the bias a one-row matrix. -/
def dense0 (A X : F32 S50000x128) (WL WR : F32 S128x256) (B : F32 S1x256) : F32 S50000x256 :=
  maximumf (addf (addf (Host.dotGeneral dot_S50000x128_S128x256_S50000x256_1_0_0_1_n_n none A WL)
      (broadcastInDim S50000x256 ![0, 1] bcast_S1x256_S50000x256_0_1 B))
      (Host.dotGeneral dot_S50000x128_S128x256_S50000x256_1_0_0_1_n_n none X WR))
    (broadcastInDim S50000x256 ![] bcast_S_S50000x256 (constant S_ .f32 0x00000000#32))

/-- Layer 2's dense part, rectified: 256 features in, 256 out. -/
def dense1 (A X : F32 S50000x256) (WL WR : F32 S256x256) (B : F32 S1x256) : F32 S50000x256 :=
  maximumf (addf (addf (Host.dotGeneral dot_S50000x256_S256x256_S50000x256_1_0_0_1_n_n none A WL)
      (broadcastInDim S50000x256 ![0, 1] bcast_S1x256_S50000x256_0_1 B))
      (Host.dotGeneral dot_S50000x256_S256x256_S50000x256_1_0_0_1_n_n none X WR))
    (broadcastInDim S50000x256 ![] bcast_S_S50000x256 (constant S_ .f32 0x00000000#32))

/-- Layer 3's dense part: 256 features in, 40 out, not rectified. -/
def dense2 (A X : F32 S50000x256) (WL WR : F32 S256x40) (B : F32 S1x40) : F32 S50000x40 :=
  addf (addf (Host.dotGeneral dot_S50000x256_S256x40_S50000x40_1_0_0_1_n_n none A WL)
      (broadcastInDim S50000x40 ![0, 1] bcast_S1x40_S50000x40_0_1 B))
    (Host.dotGeneral dot_S50000x256_S256x40_S50000x40_1_0_0_1_n_n none X WR)

/-- The log-softmax of every row of the 40 class scores. -/
def lsm (Z : F32 S50000x40) : F32 S50000x40 :=
  Cert.LibSageLayer.hostLsm Z reducesTo_S50000x40_S50000_d1 h_S_ bcast_S_S50000 bcast_S50000_S50000x1_0 bcast_S50000x1_S50000x40_0_1

/-- The first, second and third layers from the arguments, the third through the log-softmax. -/
def h1 (x : F32 S50000x128) (ei : I32 S2x600000) (Wl1 : F32 S256x128) (bl1 : F32 S256) (Wr1 : F32 S256x128) : F32 S50000x256 :=
  dense0 (mean128 x (src ei) (dst ei)) x (transpose S128x256 [1, 0] Wl1 transposes_S256x128_S128x256_1_0)
    (transpose S128x256 [1, 0] Wr1 transposes_S256x128_S128x256_1_0) (broadcastInDim S1x256 ![1] bcast_S256_S1x256_1 bl1)

def h2 (g : F32 S50000x256) (s d : I32 S600000) (Wl2 : F32 S256x256) (bl2 : F32 S256) (Wr2 : F32 S256x256) : F32 S50000x256 :=
  dense1 (mean256 g s d) g (transpose S256x256 [1, 0] Wl2 transposes_S256x256_S256x256_1_0)
    (transpose S256x256 [1, 0] Wr2 transposes_S256x256_S256x256_1_0) (broadcastInDim S1x256 ![1] bcast_S256_S1x256_1 bl2)

def out (g : F32 S50000x256) (s d : I32 S600000) (Wl3 : F32 S40x256) (bl3 : F32 S40) (Wr3 : F32 S40x256) : F32 S50000x40 :=
  lsm (dense2 (mean256 g s d) g (transpose S256x40 [1, 0] Wl3 transposes_S40x256_S256x40_1_0)
    (transpose S256x40 [1, 0] Wr3 transposes_S40x256_S256x40_1_0) (broadcastInDim S1x40 ![1] bcast_S40_S1x40_1 bl3))

/-- The whole network. -/
def model (x : F32 S50000x128) (ei : I32 S2x600000) (Wl1 : F32 S256x128) (bl1 : F32 S256) (Wr1 : F32 S256x128)
    (Wl2 : F32 S256x256) (bl2 : F32 S256) (Wr2 : F32 S256x256) (Wl3 : F32 S40x256) (bl3 : F32 S40) (Wr3 : F32 S40x256) : F32 S50000x40 :=
  out (h2 (h1 x ei Wl1 bl1 Wr1) (src ei) (dst ei) Wl2 bl2 Wr2) (src ei) (dst ei) Wl3 bl3 Wr3

/-- A vector laid as one row by a reshape is the vector given a leading unit axis by a broadcast. -/
theorem row_reshape_eq {α : Type} {n : Nat} (b : (⟨1, ![n]⟩ : Shape).Idx → α)
    (h0 : (⟨1, ![n]⟩ : Shape).ShapeCasts ⟨2, ![1, n]⟩)
    (h3 : (⟨1, ![n]⟩ : Shape).BroadcastsInDim ⟨2, ![1, n]⟩ (![1] : Fin 1 → Fin 2)) :
    shapeCast ⟨2, ![1, n]⟩ b h0 = broadcastInDim ⟨2, ![1, n]⟩ ![1] h3 b := by
  funext i
  obtain ⟨p, q, rfl⟩ : ∃ (p : Fin 1) (q : Fin n), i = ValueIdx.ix2 p q := ⟨i 0, i 1, ValueIdx.eq_ix2 i⟩
  have hp : p = 0 := Fin.ext (by omega)
  subst hp
  rw [ValueIdx.shapeCast_a_1a_apply b h0 0 q]
  exact (broadcastInDim_apply _ h3 b (ValueIdx.ix2 0 q) (ValueIdx.ix1 q) (fun c => by
    match c with
    | ⟨0, _⟩ => exact Cert.LibSageLayer.val_eq_ite (n := n) q)).symm

end Cert.Sage.Spec

end
-- ==== Proof.Region0.lean ====
/-
  Layer 1 on the vector unit, block by block, is the host's layer on the whole arrays.

  The launch walks 25 blocks of 2000 rows. At block t the body reads rows 2000·t … 2000·t + 1999 of the aggregated
  neighbour features and of the nodes' own features, both whole weight matrices and the one-row bias, and writes rows
  2000·t … 2000·t + 1999 of the output. Entry (y, q) of what it writes is the rectified affine entry of row 2000·t + y,
  which is the host's layer at (2000·t + y, q) because addition of extended reals is commutative and associative. The
  25 blocks cover the output array, so the array ends holding the host's layer of the arrays the launch found.
  The contents the launch finds are a parameter.
-/
import proofs.«180029_j1185410974147_1_alg».proof.Proof.Gen.KernelIdeal.Frame
import proofs.«180029_j1185410974147_1_alg».proof.Proof.Spec
import Idealize.ShloMosaic.Lib.Pipeline.Value
import Idealize.ShloMosaic.Lib.ValueIdx

set_option maxRecDepth 16384

noncomputable section

namespace Cert.Sage.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.LibDenseBlock Cert.LibSageLayer

/-- The host's layer at entry (p, q). -/
theorem layer_apply (A X : FVec Ideal S50000x128 .f32) (WL WR : FVec Ideal S128x256 .f32) (B : FVec Ideal S1x256 .f32)
    (p : Fin 50000) (q : Fin 256) :
    Cert.Sage.Spec.dense0 A X WL WR B (ix2 p q)
      = max (affine A X WL WR (fun q => B (ix2 (0 : Fin 1) q)) p q) (Ideal.ofBits .f32 0x00000000#32) := by
  unfold Cert.Sage.Spec.dense0
  exact hostRelu_apply Cert.ReferenceIdeal.dot_S50000x128_S128x256_S50000x256_1_0_0_1_n_n rfl rfl rfl rfl (fun _ _ => rfl) (fun _ _ => rfl)
    A X WL WR B Cert.ReferenceIdeal.Gen.bcast_S1x256_S50000x256_0_1 Cert.ReferenceIdeal.Gen.bcast_S_S50000x256 p q

/-- What the body stores at (y, q) of a block whose rows are rows p of the arrays: the host's layer at (p, q). -/
theorem block_entry (x0 x1 : Vec Ideal S2000x128 .f32) (x2 x3 : Vec Ideal S128x256 .f32) (x4 : Vec Ideal S1x256 .f32)
    (A X : FVec Ideal S50000x128 .f32) (WL WR : FVec Ideal S128x256 .f32) (B : FVec Ideal S1x256 .f32)
    (y : Fin 2000) (q : Fin 256) (p : Fin 50000)
    (h0 : ∀ k : Fin 128, x0 (ix2 y k) = A (ix2 p k)) (h1 : ∀ k : Fin 128, x1 (ix2 y k) = X (ix2 p k))
    (h2 : ∀ (k : Fin 128) (u : Fin 256), x2 (ix2 k u) = WL (ix2 k u))
    (h3 : ∀ (k : Fin 128) (u : Fin 256), x3 (ix2 k u) = WR (ix2 k u))
    (h4 : ∀ u : Fin 256, x4 (ix2 (0 : Fin 1) u) = B (ix2 (0 : Fin 1) u)) :
    k0_pay1 x0 x1 x2 x3 x4 (ix2 y q) = Cert.Sage.Spec.dense0 A X WL WR B (ix2 p q) := by
  rw [layer_apply]
  refine (kernelRelu_apply dot_S2000x128_S128x256_S2000x256_1_0_0_1_n_n rfl rfl rfl rfl (fun _ _ => rfl) (fun _ _ => rfl) bitsLt_bf16_f32
    (shapeCast S2000x128 x0 shapeCasts_S2000x128_S2000x128) x1
    (shapeCast S128x256 x2 shapeCasts_S128x256_S128x256) (shapeCast S128x256 x3 shapeCasts_S128x256_S128x256)
    (shapeCast S1x256 x4 shapeCasts_S1x256_S1x256) broadcasts_S1x256_S2000x256 y q).trans ?_
  refine congrArg (fun z => max z (Ideal.ofBits .f32 0x00000000#32)) ?_
  refine affine_congr _ _ _ _ _ _ _ _ _ _ y p q ?_ ?_ ?_ ?_ ?_
  · intro k; rw [shapeCast_self]; exact h0 k
  · intro k; exact h1 k
  · intro k; rw [shapeCast_self]; exact h2 k q
  · intro k; rw [shapeCast_self]; exact h3 k q
  · show shapeCast S1x256 x4 shapeCasts_S1x256_S1x256 (ix2 (0 : Fin 1) q) = _
    rw [shapeCast_self]; exact h4 q

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-blocked windows sit at block t, the resident ones at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the host's layer of the arrays the launch found. -/
theorem flushed_eq (c : Dev nD) (t : Fin cfg0.N) :
    (dat0 V c).flushed 5 t = ((cfg0.win 5).blk t).view.read (Elt Ideal)
      (Cert.Sage.Spec.dense0 (V c main_v22) (V c main_arg0) (V c main_v23) (V c main_v24) (V c main_v25)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  obtain ⟨e00, e01, e10, e11, e20, e21, e30, e31, e40, e41, e50, e51⟩ := idx_facts t
  have ht : t.val < 25 := Nat.lt_of_lt_of_eq t.isLt N_0
  funext j
  obtain ⟨y, q, rfl⟩ : ∃ (y : Fin 2000) (q : Fin 256), j = ix2 y q := ⟨j 0, j 1, eq_ix2 j⟩
  have hy : y.val < 2000 := y.isLt
  have he : ((cfg0.win 5).blk t).view.emb (ix2 y q) = ix2 (⟨t.val * 2000 + y.val, by omega⟩ : Fin 50000) q := by
    funext a; apply Fin.ext
    match a with
    | ⟨0, _⟩ => show win0_5.index t (0 : Fin 2) * 2000 + 1 * y.val = t.val * 2000 + y.val; omega
    | ⟨1, _⟩ => show win0_5.index t (1 : Fin 2) * 256 + 1 * q.val = q.val; omega
  show k0_pay1 (iblk0 V c 0 t) (iblk0 V c 1 t) (iblk0 V c 2 t) (iblk0 V c 3 t) (iblk0 V c 4 t) (ix2 y q)
    = Cert.Sage.Spec.dense0 (V c main_v22) (V c main_arg0) (V c main_v23) (V c main_v24) (V c main_v25) (((cfg0.win 5).blk t).view.emb (ix2 y q))
  rw [he]
  refine block_entry _ _ _ _ _ _ _ _ _ _ y q _ ?_ ?_ ?_ ?_ ?_
  · intro k
    show V c main_v22 (((cfg0.win 0).blk t).view.emb (ix2 y k)) = V c main_v22 (ix2 _ k)
    refine congrArg (V c main_v22) (funext fun a => Fin.ext ?_)
    match a with
    | ⟨0, _⟩ => show win0_0.index t (0 : Fin 2) * 2000 + 1 * y.val = t.val * 2000 + y.val; omega
    | ⟨1, _⟩ => show win0_0.index t (1 : Fin 2) * 128 + 1 * k.val = k.val; omega
  · intro k
    show V c main_arg0 (((cfg0.win 1).blk t).view.emb (ix2 y k)) = V c main_arg0 (ix2 _ k)
    refine congrArg (V c main_arg0) (funext fun a => Fin.ext ?_)
    match a with
    | ⟨0, _⟩ => show win0_1.index t (0 : Fin 2) * 2000 + 1 * y.val = t.val * 2000 + y.val; omega
    | ⟨1, _⟩ => show win0_1.index t (1 : Fin 2) * 128 + 1 * k.val = k.val; omega
  · intro k u
    show V c main_v23 (((cfg0.win 2).blk t).view.emb (ix2 k u)) = V c main_v23 (ix2 k u)
    refine congrArg (V c main_v23) (funext fun a => Fin.ext ?_)
    match a with
    | ⟨0, _⟩ => show win0_2.index t (0 : Fin 2) * 128 + 1 * k.val = k.val; omega
    | ⟨1, _⟩ => show win0_2.index t (1 : Fin 2) * 256 + 1 * u.val = u.val; omega
  · intro k u
    show V c main_v24 (((cfg0.win 3).blk t).view.emb (ix2 k u)) = V c main_v24 (ix2 k u)
    refine congrArg (V c main_v24) (funext fun a => Fin.ext ?_)
    match a with
    | ⟨0, _⟩ => show win0_3.index t (0 : Fin 2) * 128 + 1 * k.val = k.val; omega
    | ⟨1, _⟩ => show win0_3.index t (1 : Fin 2) * 256 + 1 * u.val = u.val; omega
  · intro u
    show V c main_v25 (((cfg0.win 4).blk t).view.emb (ix2 (0 : Fin 1) u)) = V c main_v25 (ix2 (0 : Fin 1) u)
    refine congrArg (V c main_v25) (funext fun a => Fin.ext ?_)
    match a with
    | ⟨0, _⟩ => show win0_4.index t (0 : Fin 2) * 1 + 1 * 0 = 0; omega
    | ⟨1, _⟩ => show win0_4.index t (1 : Fin 2) * 256 + 1 * u.val = u.val; omega

/-- An index of the output array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v26).slice (win0_5.rect t)).set ↔ _
  rw [View.set_slice_whole, Rect.mem_set_unit]
  exact Iff.rfl

/-- Every row of the output array is in the block of the point that is the row's number divided by 2000. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  let t : Fin cfg0.N := ⟨(i 0).val / 2000, Nat.lt_of_lt_of_eq (by omega : (i 0).val / 2000 < 25) hN.symm⟩
  obtain ⟨e00, e01, e10, e11, e20, e21, e30, e31, e40, e41, e50, e51⟩ := idx_facts t
  have htv : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- The output array after the launch: the host's layer of the arrays the launch found. -/
theorem final (c : Dev nD) :
    (dat0 V c).arrAt 5 cfg0.N = Cert.Sage.Spec.dense0 (V c main_v22) (V c main_arg0) (V c main_v23) (V c main_v24) (V c main_v25) :=
  (dat0 V c).arrAt_eq_of_cover 5 _ (fun t _ => flushed_eq V c t) (cover)

end Cert.Sage.Region0

end
-- ==== Proof.Region1.lean ====
/-
  Layer 2 on the vector unit, block by block, is the host's layer on the whole arrays.

  The launch walks 25 blocks of 2000 rows. At block t the body reads rows 2000·t … 2000·t + 1999 of the aggregated
  neighbour features and of the nodes' own features, both whole weight matrices and the one-row bias, and writes rows
  2000·t … 2000·t + 1999 of the output. Entry (y, q) of what it writes is the rectified affine entry of row 2000·t + y,
  which is the host's layer at (2000·t + y, q) because addition of extended reals is commutative and associative. The
  25 blocks cover the output array, so the array ends holding the host's layer of the arrays the launch found.
  The contents the launch finds are a parameter.
-/
import proofs.«180029_j1185410974147_1_alg».proof.Proof.Gen.KernelIdeal.Frame
import proofs.«180029_j1185410974147_1_alg».proof.Proof.Spec
import Idealize.ShloMosaic.Lib.Pipeline.Value
import Idealize.ShloMosaic.Lib.ValueIdx

set_option maxRecDepth 16384

noncomputable section

namespace Cert.Sage.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.LibDenseBlock Cert.LibSageLayer

/-- The host's layer at entry (p, q). -/
theorem layer_apply (A X : FVec Ideal S50000x256 .f32) (WL WR : FVec Ideal S256x256 .f32) (B : FVec Ideal S1x256 .f32)
    (p : Fin 50000) (q : Fin 256) :
    Cert.Sage.Spec.dense1 A X WL WR B (ix2 p q)
      = max (affine A X WL WR (fun q => B (ix2 (0 : Fin 1) q)) p q) (Ideal.ofBits .f32 0x00000000#32) := by
  unfold Cert.Sage.Spec.dense1
  exact hostRelu_apply Cert.ReferenceIdeal.dot_S50000x256_S256x256_S50000x256_1_0_0_1_n_n rfl rfl rfl rfl (fun _ _ => rfl) (fun _ _ => rfl)
    A X WL WR B Cert.ReferenceIdeal.Gen.bcast_S1x256_S50000x256_0_1 Cert.ReferenceIdeal.Gen.bcast_S_S50000x256 p q

/-- What the body stores at (y, q) of a block whose rows are rows p of the arrays: the host's layer at (p, q). -/
theorem block_entry (x0 x1 : Vec Ideal S2000x256 .f32) (x2 x3 : Vec Ideal S256x256 .f32) (x4 : Vec Ideal S1x256 .f32)
    (A X : FVec Ideal S50000x256 .f32) (WL WR : FVec Ideal S256x256 .f32) (B : FVec Ideal S1x256 .f32)
    (y : Fin 2000) (q : Fin 256) (p : Fin 50000)
    (h0 : ∀ k : Fin 256, x0 (ix2 y k) = A (ix2 p k)) (h1 : ∀ k : Fin 256, x1 (ix2 y k) = X (ix2 p k))
    (h2 : ∀ (k : Fin 256) (u : Fin 256), x2 (ix2 k u) = WL (ix2 k u))
    (h3 : ∀ (k : Fin 256) (u : Fin 256), x3 (ix2 k u) = WR (ix2 k u))
    (h4 : ∀ u : Fin 256, x4 (ix2 (0 : Fin 1) u) = B (ix2 (0 : Fin 1) u)) :
    k1_pay1 x0 x1 x2 x3 x4 (ix2 y q) = Cert.Sage.Spec.dense1 A X WL WR B (ix2 p q) := by
  rw [layer_apply]
  refine (kernelRelu_apply dot_S2000x256_S256x256_S2000x256_1_0_0_1_n_n rfl rfl rfl rfl (fun _ _ => rfl) (fun _ _ => rfl) bitsLt_bf16_f32
    (shapeCast S2000x256 x0 shapeCasts_S2000x256_S2000x256) (shapeCast S2000x256 x1 shapeCasts_S2000x256_S2000x256)
    (shapeCast S256x256 x2 shapeCasts_S256x256_S256x256) (shapeCast S256x256 x3 shapeCasts_S256x256_S256x256)
    (shapeCast S1x256 x4 shapeCasts_S1x256_S1x256) broadcasts_S1x256_S2000x256 y q).trans ?_
  refine congrArg (fun z => max z (Ideal.ofBits .f32 0x00000000#32)) ?_
  refine affine_congr _ _ _ _ _ _ _ _ _ _ y p q ?_ ?_ ?_ ?_ ?_
  · intro k; rw [shapeCast_self]; exact h0 k
  · intro k; rw [shapeCast_self]; exact h1 k
  · intro k; rw [shapeCast_self]; exact h2 k q
  · intro k; rw [shapeCast_self]; exact h3 k q
  · show shapeCast S1x256 x4 shapeCasts_S1x256_S1x256 (ix2 (0 : Fin 1) q) = _
    rw [shapeCast_self]; exact h4 q

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-blocked windows sit at block t, the resident ones at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the host's layer of the arrays the launch found. -/
theorem flushed_eq (c : Dev nD) (t : Fin cfg1.N) :
    (dat1 V c).flushed 5 t = ((cfg1.win 5).blk t).view.read (Elt Ideal)
      (Cert.Sage.Spec.dense1 (V c main_v45) (V c main_v26) (V c main_v46) (V c main_v47) (V c main_v48)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  obtain ⟨e00, e01, e10, e11, e20, e21, e30, e31, e40, e41, e50, e51⟩ := idx_facts t
  have ht : t.val < 25 := Nat.lt_of_lt_of_eq t.isLt N_1
  funext j
  obtain ⟨y, q, rfl⟩ : ∃ (y : Fin 2000) (q : Fin 256), j = ix2 y q := ⟨j 0, j 1, eq_ix2 j⟩
  have hy : y.val < 2000 := y.isLt
  have he : ((cfg1.win 5).blk t).view.emb (ix2 y q) = ix2 (⟨t.val * 2000 + y.val, by omega⟩ : Fin 50000) q := by
    funext a; apply Fin.ext
    match a with
    | ⟨0, _⟩ => show win1_5.index t (0 : Fin 2) * 2000 + 1 * y.val = t.val * 2000 + y.val; omega
    | ⟨1, _⟩ => show win1_5.index t (1 : Fin 2) * 256 + 1 * q.val = q.val; omega
  show k1_pay1 (iblk1 V c 0 t) (iblk1 V c 1 t) (iblk1 V c 2 t) (iblk1 V c 3 t) (iblk1 V c 4 t) (ix2 y q)
    = Cert.Sage.Spec.dense1 (V c main_v45) (V c main_v26) (V c main_v46) (V c main_v47) (V c main_v48) (((cfg1.win 5).blk t).view.emb (ix2 y q))
  rw [he]
  refine block_entry _ _ _ _ _ _ _ _ _ _ y q _ ?_ ?_ ?_ ?_ ?_
  · intro k
    show V c main_v45 (((cfg1.win 0).blk t).view.emb (ix2 y k)) = V c main_v45 (ix2 _ k)
    refine congrArg (V c main_v45) (funext fun a => Fin.ext ?_)
    match a with
    | ⟨0, _⟩ => show win1_0.index t (0 : Fin 2) * 2000 + 1 * y.val = t.val * 2000 + y.val; omega
    | ⟨1, _⟩ => show win1_0.index t (1 : Fin 2) * 256 + 1 * k.val = k.val; omega
  · intro k
    show V c main_v26 (((cfg1.win 1).blk t).view.emb (ix2 y k)) = V c main_v26 (ix2 _ k)
    refine congrArg (V c main_v26) (funext fun a => Fin.ext ?_)
    match a with
    | ⟨0, _⟩ => show win1_1.index t (0 : Fin 2) * 2000 + 1 * y.val = t.val * 2000 + y.val; omega
    | ⟨1, _⟩ => show win1_1.index t (1 : Fin 2) * 256 + 1 * k.val = k.val; omega
  · intro k u
    show V c main_v46 (((cfg1.win 2).blk t).view.emb (ix2 k u)) = V c main_v46 (ix2 k u)
    refine congrArg (V c main_v46) (funext fun a => Fin.ext ?_)
    match a with
    | ⟨0, _⟩ => show win1_2.index t (0 : Fin 2) * 256 + 1 * k.val = k.val; omega
    | ⟨1, _⟩ => show win1_2.index t (1 : Fin 2) * 256 + 1 * u.val = u.val; omega
  · intro k u
    show V c main_v47 (((cfg1.win 3).blk t).view.emb (ix2 k u)) = V c main_v47 (ix2 k u)
    refine congrArg (V c main_v47) (funext fun a => Fin.ext ?_)
    match a with
    | ⟨0, _⟩ => show win1_3.index t (0 : Fin 2) * 256 + 1 * k.val = k.val; omega
    | ⟨1, _⟩ => show win1_3.index t (1 : Fin 2) * 256 + 1 * u.val = u.val; omega
  · intro u
    show V c main_v48 (((cfg1.win 4).blk t).view.emb (ix2 (0 : Fin 1) u)) = V c main_v48 (ix2 (0 : Fin 1) u)
    refine congrArg (V c main_v48) (funext fun a => Fin.ext ?_)
    match a with
    | ⟨0, _⟩ => show win1_4.index t (0 : Fin 2) * 1 + 1 * 0 = 0; omega
    | ⟨1, _⟩ => show win1_4.index t (1 : Fin 2) * 256 + 1 * u.val = u.val; omega

/-- An index of the output array is in point t's block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v49).slice (win1_5.rect t)).set ↔ _
  rw [View.set_slice_whole, Rect.mem_set_unit]
  exact Iff.rfl

/-- Every row of the output array is in the block of the point that is the row's number divided by 2000. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  let t : Fin cfg1.N := ⟨(i 0).val / 2000, Nat.lt_of_lt_of_eq (by omega : (i 0).val / 2000 < 25) hN.symm⟩
  obtain ⟨e00, e01, e10, e11, e20, e21, e30, e31, e40, e41, e50, e51⟩ := idx_facts t
  have htv : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The output array after the launch: the host's layer of the arrays the launch found. -/
theorem final (c : Dev nD) :
    (dat1 V c).arrAt 5 cfg1.N = Cert.Sage.Spec.dense1 (V c main_v45) (V c main_v26) (V c main_v46) (V c main_v47) (V c main_v48) :=
  (dat1 V c).arrAt_eq_of_cover 5 _ (fun t _ => flushed_eq V c t) (cover)

end Cert.Sage.Region1

end
-- ==== Proof.Region2.lean ====
/-
  Layer 3 on the vector unit, block by block, is the host's layer on the whole arrays.

  The launch walks 25 blocks of 2000 rows. At block t the body reads rows 2000·t … 2000·t + 1999 of the aggregated
  neighbour features and of the nodes' own features, both whole weight matrices and the one-row bias, and writes rows
  2000·t … 2000·t + 1999 of the output. Entry (y, q) of what it writes is the log-softmax, at q, of the affine entries of row 2000·t + y: a row's log-softmax reads only that row,
  which is the host's layer at (2000·t + y, q) because addition of extended reals is commutative and associative and taking a row's maximum once more against −∞ changes nothing. The
  25 blocks cover the output array, so the array ends holding the host's layer of the arrays the launch found.
  The contents the launch finds are a parameter.
-/
import proofs.«180029_j1185410974147_1_alg».proof.Proof.Gen.KernelIdeal.Frame
import proofs.«180029_j1185410974147_1_alg».proof.Proof.Spec
import Idealize.ShloMosaic.Lib.Pipeline.Value
import Idealize.ShloMosaic.Lib.ValueIdx

set_option maxRecDepth 16384

noncomputable section

namespace Cert.Sage.Region2

open Cert.KernelIdeal Cert.KernelIdeal.Gen
open Idealize.ShloMosaic Idealize.ShloMosaic.TcCoe Idealize.ShloMosaic.ValueIdx Idealize.SL.Sem
open Idealize.ShloMosaic.Pipeline (Dat)
open Cert.LibDenseBlock Cert.LibSageLayer

/-- The host's affine layer at entry (p, q). -/
theorem dense_apply (A X : FVec Ideal S50000x256 .f32) (WL WR : FVec Ideal S256x40 .f32) (B : FVec Ideal S1x40 .f32)
    (p : Fin 50000) (q : Fin 40) :
    Cert.Sage.Spec.dense2 A X WL WR B (ix2 p q) = affine A X WL WR (fun q => B (ix2 (0 : Fin 1) q)) p q := by
  unfold Cert.Sage.Spec.dense2
  exact hostAffine_apply Cert.ReferenceIdeal.dot_S50000x256_S256x40_S50000x40_1_0_0_1_n_n rfl rfl rfl rfl (fun _ _ => rfl) (fun _ _ => rfl)
    A X WL WR B Cert.ReferenceIdeal.Gen.bcast_S1x40_S50000x40_0_1 p q

/-- The host's layer at entry (p, q): the log-softmax of row p of the affine layer, at q. -/
theorem layer_apply (A X : FVec Ideal S50000x256 .f32) (WL WR : FVec Ideal S256x40 .f32) (B : FVec Ideal S1x40 .f32)
    (p : Fin 50000) (q : Fin 40) :
    Cert.Sage.Spec.lsm (Cert.Sage.Spec.dense2 A X WL WR B) (ix2 p q)
      = lsmRow (fun u => affine A X WL WR (fun q => B (ix2 (0 : Fin 1) q)) p u) q := by
  unfold Cert.Sage.Spec.lsm
  rw [hostLsm_apply _ Cert.ReferenceIdeal.Gen.reducesTo_S50000x40_S50000_d1 (by decide) Cert.ReferenceIdeal.Gen.h_S_
    Cert.ReferenceIdeal.Gen.bcast_S_S50000 Cert.ReferenceIdeal.Gen.bcast_S50000_S50000x1_0 Cert.ReferenceIdeal.Gen.bcast_S50000x1_S50000x40_0_1 p q]
  exact congrArg (fun L => lsmRow L q) (funext fun u => dense_apply A X WL WR B p u)

/-- What the body stores at (y, q) of a block whose rows are rows p of the arrays: the host's layer at (p, q). -/
theorem block_entry (x0 x1 : Vec Ideal S2000x256 .f32) (x2 x3 : Vec Ideal S256x40 .f32) (x4 : Vec Ideal S1x40 .f32)
    (A X : FVec Ideal S50000x256 .f32) (WL WR : FVec Ideal S256x40 .f32) (B : FVec Ideal S1x40 .f32)
    (y : Fin 2000) (q : Fin 40) (p : Fin 50000)
    (h0 : ∀ k : Fin 256, x0 (ix2 y k) = A (ix2 p k)) (h1 : ∀ k : Fin 256, x1 (ix2 y k) = X (ix2 p k))
    (h2 : ∀ (k : Fin 256) (u : Fin 40), x2 (ix2 k u) = WL (ix2 k u))
    (h3 : ∀ (k : Fin 256) (u : Fin 40), x3 (ix2 k u) = WR (ix2 k u))
    (h4 : ∀ u : Fin 40, x4 (ix2 (0 : Fin 1) u) = B (ix2 (0 : Fin 1) u)) :
    k2_pay1 x0 x1 x2 x3 x4 (ix2 y q) = Cert.Sage.Spec.lsm (Cert.Sage.Spec.dense2 A X WL WR B) (ix2 p q) := by
  rw [layer_apply]
  refine (kernelLsm_apply (addf (addf (matmul dot_S2000x256_S256x40_S2000x40_1_0_0_1_n_n none
      (truncf .bf16 (shapeCast S2000x256 x0 shapeCasts_S2000x256_S2000x256) bitsLt_bf16_f32)
      (truncf .bf16 (shapeCast S256x40 x2 shapeCasts_S256x40_S256x40) bitsLt_bf16_f32) (constant S2000x40 .f32 0x00000000#32))
      (matmul dot_S2000x256_S256x40_S2000x40_1_0_0_1_n_n none
      (truncf .bf16 (shapeCast S2000x256 x1 shapeCasts_S2000x256_S2000x256) bitsLt_bf16_f32)
      (truncf .bf16 (shapeCast S256x40 x3 shapeCasts_S256x40_S256x40) bitsLt_bf16_f32) (constant S2000x40 .f32 0x00000000#32)))
      (broadcastTo S2000x40 (shapeCast S1x40 x4 shapeCasts_S1x40_S1x40) broadcasts_S1x40_S2000x40))
    reduces_S2000x40_S2000 (.inl rfl) rfl rfl shapeCasts_S2000_S2000x1 broadcasts_S2000x1_S2000x40 y q).trans ?_
  refine congrArg (fun L => lsmRow L q) (funext fun u => ?_)
  refine (block_affine_apply dot_S2000x256_S256x40_S2000x40_1_0_0_1_n_n rfl rfl rfl rfl (fun _ _ => rfl) (fun _ _ => rfl) bitsLt_bf16_f32
    (shapeCast S2000x256 x0 shapeCasts_S2000x256_S2000x256) (shapeCast S2000x256 x1 shapeCasts_S2000x256_S2000x256)
    (shapeCast S256x40 x2 shapeCasts_S256x40_S256x40) (shapeCast S256x40 x3 shapeCasts_S256x40_S256x40)
    (shapeCast S1x40 x4 shapeCasts_S1x40_S1x40) broadcasts_S1x40_S2000x40 y u).trans ?_
  refine affine_congr _ _ _ _ _ _ _ _ _ _ y p u ?_ ?_ ?_ ?_ ?_
  · intro k; rw [shapeCast_self]; exact h0 k
  · intro k; rw [shapeCast_self]; exact h1 k
  · intro k; rw [shapeCast_self]; exact h2 k u
  · intro k; rw [shapeCast_self]; exact h3 k u
  · show shapeCast S1x40 x4 shapeCasts_S1x40_S1x40 (ix2 (0 : Fin 1) u) = _
    rw [shapeCast_self]; exact h4 u

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-blocked windows sit at block t, the resident ones at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the host's layer of the arrays the launch found. -/
theorem flushed_eq (c : Dev nD) (t : Fin cfg2.N) :
    (dat2 V c).flushed 5 t = ((cfg2.win 5).blk t).view.read (Elt Ideal)
      (Cert.Sage.Spec.lsm (Cert.Sage.Spec.dense2 (V c main_v68) (V c main_v49) (V c main_v69) (V c main_v70) (V c main_v71))) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x40) hz, View.ld_unit_zero (S := S1x40) hz]
  obtain ⟨e00, e01, e10, e11, e20, e21, e30, e31, e40, e41, e50, e51⟩ := idx_facts t
  have ht : t.val < 25 := Nat.lt_of_lt_of_eq t.isLt N_2
  funext j
  obtain ⟨y, q, rfl⟩ : ∃ (y : Fin 2000) (q : Fin 40), j = ix2 y q := ⟨j 0, j 1, eq_ix2 j⟩
  have hy : y.val < 2000 := y.isLt
  have he : ((cfg2.win 5).blk t).view.emb (ix2 y q) = ix2 (⟨t.val * 2000 + y.val, by omega⟩ : Fin 50000) q := by
    funext a; apply Fin.ext
    match a with
    | ⟨0, _⟩ => show win2_5.index t (0 : Fin 2) * 2000 + 1 * y.val = t.val * 2000 + y.val; omega
    | ⟨1, _⟩ => show win2_5.index t (1 : Fin 2) * 40 + 1 * q.val = q.val; omega
  show k2_pay1 (iblk2 V c 0 t) (iblk2 V c 1 t) (iblk2 V c 2 t) (iblk2 V c 3 t) (iblk2 V c 4 t) (ix2 y q)
    = Cert.Sage.Spec.lsm (Cert.Sage.Spec.dense2 (V c main_v68) (V c main_v49) (V c main_v69) (V c main_v70) (V c main_v71)) (((cfg2.win 5).blk t).view.emb (ix2 y q))
  rw [he]
  refine block_entry _ _ _ _ _ _ _ _ _ _ y q _ ?_ ?_ ?_ ?_ ?_
  · intro k
    show V c main_v68 (((cfg2.win 0).blk t).view.emb (ix2 y k)) = V c main_v68 (ix2 _ k)
    refine congrArg (V c main_v68) (funext fun a => Fin.ext ?_)
    match a with
    | ⟨0, _⟩ => show win2_0.index t (0 : Fin 2) * 2000 + 1 * y.val = t.val * 2000 + y.val; omega
    | ⟨1, _⟩ => show win2_0.index t (1 : Fin 2) * 256 + 1 * k.val = k.val; omega
  · intro k
    show V c main_v49 (((cfg2.win 1).blk t).view.emb (ix2 y k)) = V c main_v49 (ix2 _ k)
    refine congrArg (V c main_v49) (funext fun a => Fin.ext ?_)
    match a with
    | ⟨0, _⟩ => show win2_1.index t (0 : Fin 2) * 2000 + 1 * y.val = t.val * 2000 + y.val; omega
    | ⟨1, _⟩ => show win2_1.index t (1 : Fin 2) * 256 + 1 * k.val = k.val; omega
  · intro k u
    show V c main_v69 (((cfg2.win 2).blk t).view.emb (ix2 k u)) = V c main_v69 (ix2 k u)
    refine congrArg (V c main_v69) (funext fun a => Fin.ext ?_)
    match a with
    | ⟨0, _⟩ => show win2_2.index t (0 : Fin 2) * 256 + 1 * k.val = k.val; omega
    | ⟨1, _⟩ => show win2_2.index t (1 : Fin 2) * 40 + 1 * u.val = u.val; omega
  · intro k u
    show V c main_v70 (((cfg2.win 3).blk t).view.emb (ix2 k u)) = V c main_v70 (ix2 k u)
    refine congrArg (V c main_v70) (funext fun a => Fin.ext ?_)
    match a with
    | ⟨0, _⟩ => show win2_3.index t (0 : Fin 2) * 256 + 1 * k.val = k.val; omega
    | ⟨1, _⟩ => show win2_3.index t (1 : Fin 2) * 40 + 1 * u.val = u.val; omega
  · intro u
    show V c main_v71 (((cfg2.win 4).blk t).view.emb (ix2 (0 : Fin 1) u)) = V c main_v71 (ix2 (0 : Fin 1) u)
    refine congrArg (V c main_v71) (funext fun a => Fin.ext ?_)
    match a with
    | ⟨0, _⟩ => show win2_4.index t (0 : Fin 2) * 1 + 1 * 0 = 0; omega
    | ⟨1, _⟩ => show win2_4.index t (1 : Fin 2) * 40 + 1 * u.val = u.val; omega

/-- An index of the output array is in point t's block iff each coordinate is in the block's range on its axis. -/
theorem mem_blk (t : Fin cfg2.N) (i : S50000x40.Idx) :
    i ∈ ((cfg2.win 5).blk t).view.set ↔ ∀ a : Fin 2, win2_5.index t a * S2000x40.size a ≤ (i a).val ∧ (i a).val < win2_5.index t a * S2000x40.size a + S2000x40.size a := by
  show i ∈ ((View.whole main_v72).slice (win2_5.rect t)).set ↔ _
  rw [View.set_slice_whole, Rect.mem_set_unit]
  exact Iff.rfl

/-- Every row of the output array is in the block of the point that is the row's number divided by 2000. -/
theorem cover (i : S50000x40.Idx) : ∃ t : Fin cfg2.N, (cfg2.win 5).flush t = true ∧ i ∈ ((cfg2.win 5).blk t).view.set := by
  have hi0 : (i 0).val < 50000 := (i 0).isLt
  have hi1 : (i 1).val < 40 := (i 1).isLt
  have hN : cfg2.N = 25 := N_2
  let t : Fin cfg2.N := ⟨(i 0).val / 2000, Nat.lt_of_lt_of_eq (by omega : (i 0).val / 2000 < 25) hN.symm⟩
  obtain ⟨e00, e01, e10, e11, e20, e21, e30, e31, e40, e41, e50, e51⟩ := idx_facts t
  have htv : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 40 ≤ (i 1).val ∧ (i 1).val < win2_5.index t (1 : Fin 2) * 40 + 40; omega

/-- The output array after the launch: the host's layer of the arrays the launch found. -/
theorem final (c : Dev nD) :
    (dat2 V c).arrAt 5 cfg2.N = Cert.Sage.Spec.lsm (Cert.Sage.Spec.dense2 (V c main_v68) (V c main_v49) (V c main_v69) (V c main_v70) (V c main_v71)) :=
  (dat2 V c).arrAt_eq_of_cover 5 _ (fun t _ => flushed_eq V c t) (cover)

end Cert.Sage.Region2

end
-- ==== Proof.KernelValue.lean ====
/-
  The idealized kernel's result array as the whole network of the arguments.

  The program alternates three stretches of host operations with three launches. Each stretch, folded over the contents
  it finds, leaves the aggregated neighbour features, the two transposed weight matrices and the bias as a one-row matrix
  in the buffers the next launch reads, and leaves alone what later stretches need. Each launch leaves the host's layer
  of what it read in its output array and touches nothing else. Chained from the launch contents, the result array ends
  at the network of the arguments; the only difference of spelling left is the bias row, laid out by a reshape here and
  by a broadcast in the reference, which are one matrix.
-/
import proofs.«180029_j1185410974147_1_alg».proof.Proof.Gen.KernelIdeal.Frame
import proofs.«180029_j1185410974147_1_alg».proof.Proof.Spec
import proofs.«180029_j1185410974147_1_alg».proof.Proof.Region0
import proofs.«180029_j1185410974147_1_alg».proof.Proof.Region1
import proofs.«180029_j1185410974147_1_alg».proof.Proof.Region2
import Idealize.ShloMosaic.Lib.StableHlo.Run

set_option maxRecDepth 16384

noncomputable section

namespace Cert.Sage.KernelValue

open Cert.KernelIdeal Cert.KernelIdeal.Gen
open Idealize.ShloMosaic Idealize.ShloMosaic.TcCoe Idealize.SL.Sem Idealize.ShloMosaic.StableHlo

section Stretches
variable (W : Valuation τ sig (Elt Ideal))

/-! ## The first stretch -/

theorem s0_mean : StableHlo.after hostOps0 W (Proc.devRef .tc main_v22)
    = Cert.Sage.Spec.mean128 (W (Proc.devRef .tc main_arg0)) (Cert.Sage.Spec.src (W (Proc.devRef .tc main_arg1))) (Cert.Sage.Spec.dst (W (Proc.devRef .tc main_arg1))) := by
  after_results_simp <;> rfl
theorem s0_wl : StableHlo.after hostOps0 W (Proc.devRef .tc main_v23) = transpose S128x256 [1, 0] (W (Proc.devRef .tc main_arg2)) transposes_S256x128_S128x256_1_0 := by
  after_results_simp <;> rfl
theorem s0_wr : StableHlo.after hostOps0 W (Proc.devRef .tc main_v24) = transpose S128x256 [1, 0] (W (Proc.devRef .tc main_arg4)) transposes_S256x128_S128x256_1_0 := by
  after_results_simp <;> rfl
theorem s0_b : StableHlo.after hostOps0 W (Proc.devRef .tc main_v25) = shapeCast S1x256 (W (Proc.devRef .tc main_arg3)) shapeCasts_S256_S1x256 := by
  after_results_simp <;> rfl
theorem s0_src : StableHlo.after hostOps0 W (Proc.devRef .tc main_v1) = Cert.Sage.Spec.src (W (Proc.devRef .tc main_arg1)) := by
  after_results_simp <;> rfl
theorem s0_dst : StableHlo.after hostOps0 W (Proc.devRef .tc main_v3) = Cert.Sage.Spec.dst (W (Proc.devRef .tc main_arg1)) := by
  after_results_simp <;> rfl
theorem keep0_main_arg0 : StableHlo.after hostOps0 W (Proc.devRef .tc main_arg0) = W (Proc.devRef .tc main_arg0) := by after_results_simp <;> rfl
theorem keep0_main_arg5 : StableHlo.after hostOps0 W (Proc.devRef .tc main_arg5) = W (Proc.devRef .tc main_arg5) := by after_results_simp <;> rfl
theorem keep0_main_arg6 : StableHlo.after hostOps0 W (Proc.devRef .tc main_arg6) = W (Proc.devRef .tc main_arg6) := by after_results_simp <;> rfl
theorem keep0_main_arg7 : StableHlo.after hostOps0 W (Proc.devRef .tc main_arg7) = W (Proc.devRef .tc main_arg7) := by after_results_simp <;> rfl
theorem keep0_main_arg8 : StableHlo.after hostOps0 W (Proc.devRef .tc main_arg8) = W (Proc.devRef .tc main_arg8) := by after_results_simp <;> rfl
theorem keep0_main_arg9 : StableHlo.after hostOps0 W (Proc.devRef .tc main_arg9) = W (Proc.devRef .tc main_arg9) := by after_results_simp <;> rfl
theorem keep0_main_arg10 : StableHlo.after hostOps0 W (Proc.devRef .tc main_arg10) = W (Proc.devRef .tc main_arg10) := by after_results_simp <;> rfl

/-! ## The second stretch -/

theorem s1_mean : StableHlo.after hostOps1 W (Proc.devRef .tc main_v45)
    = Cert.Sage.Spec.mean256 (W (Proc.devRef .tc main_v26)) (W (Proc.devRef .tc main_v1)) (W (Proc.devRef .tc main_v3)) := by
  after_results_simp <;> rfl
theorem s1_wl : StableHlo.after hostOps1 W (Proc.devRef .tc main_v46) = transpose S256x256 [1, 0] (W (Proc.devRef .tc main_arg5)) transposes_S256x256_S256x256_1_0 := by
  after_results_simp <;> rfl
theorem s1_wr : StableHlo.after hostOps1 W (Proc.devRef .tc main_v47) = transpose S256x256 [1, 0] (W (Proc.devRef .tc main_arg7)) transposes_S256x256_S256x256_1_0 := by
  after_results_simp <;> rfl
theorem s1_b : StableHlo.after hostOps1 W (Proc.devRef .tc main_v48) = shapeCast S1x256 (W (Proc.devRef .tc main_arg6)) shapeCasts_S256_S1x256 := by
  after_results_simp <;> rfl
theorem keep1_main_v26 : StableHlo.after hostOps1 W (Proc.devRef .tc main_v26) = W (Proc.devRef .tc main_v26) := by after_results_simp <;> rfl
theorem keep1_main_v1 : StableHlo.after hostOps1 W (Proc.devRef .tc main_v1) = W (Proc.devRef .tc main_v1) := by after_results_simp <;> rfl
theorem keep1_main_v3 : StableHlo.after hostOps1 W (Proc.devRef .tc main_v3) = W (Proc.devRef .tc main_v3) := by after_results_simp <;> rfl
theorem keep1_main_arg8 : StableHlo.after hostOps1 W (Proc.devRef .tc main_arg8) = W (Proc.devRef .tc main_arg8) := by after_results_simp <;> rfl
theorem keep1_main_arg9 : StableHlo.after hostOps1 W (Proc.devRef .tc main_arg9) = W (Proc.devRef .tc main_arg9) := by after_results_simp <;> rfl
theorem keep1_main_arg10 : StableHlo.after hostOps1 W (Proc.devRef .tc main_arg10) = W (Proc.devRef .tc main_arg10) := by after_results_simp <;> rfl

/-! ## The third stretch -/

theorem s2_mean : StableHlo.after hostOps2 W (Proc.devRef .tc main_v68)
    = Cert.Sage.Spec.mean256 (W (Proc.devRef .tc main_v49)) (W (Proc.devRef .tc main_v1)) (W (Proc.devRef .tc main_v3)) := by
  after_results_simp <;> rfl
theorem s2_wl : StableHlo.after hostOps2 W (Proc.devRef .tc main_v69) = transpose S256x40 [1, 0] (W (Proc.devRef .tc main_arg8)) transposes_S40x256_S256x40_1_0 := by
  after_results_simp <;> rfl
theorem s2_wr : StableHlo.after hostOps2 W (Proc.devRef .tc main_v70) = transpose S256x40 [1, 0] (W (Proc.devRef .tc main_arg10)) transposes_S40x256_S256x40_1_0 := by
  after_results_simp <;> rfl
theorem s2_b : StableHlo.after hostOps2 W (Proc.devRef .tc main_v71) = shapeCast S1x40 (W (Proc.devRef .tc main_arg9)) shapeCasts_S40_S1x40 := by
  after_results_simp <;> rfl
theorem keep2_main_v49 : StableHlo.after hostOps2 W (Proc.devRef .tc main_v49) = W (Proc.devRef .tc main_v49) := by after_results_simp <;> rfl

end Stretches

/-! ## The boundaries' contents, from the launch -/

variable (m : (ℓ : Loc nD τ sig) → Buf (Elt Ideal) ℓ) (ρ : Dev nD → PrngReg) (c : Dev nD)

/-- The edges' source and destination nodes, from the launch contents. -/
abbrev sK := Cert.Sage.Spec.src (m ((c : Thread nD τ).loc main_arg1))
abbrev dK := Cert.Sage.Spec.dst (m ((c : Thread nD τ).loc main_arg1))

/-- Layer 1's output as the first launch leaves it. -/
def h1K : Cert.Sage.Spec.F32 S50000x256 :=
  Cert.Sage.Spec.dense0 (Cert.Sage.Spec.mean128 (m ((c : Thread nD τ).loc main_arg0)) (sK m c) (dK m c)) (m ((c : Thread nD τ).loc main_arg0))
    (transpose S128x256 [1, 0] (m ((c : Thread nD τ).loc main_arg2)) transposes_S256x128_S128x256_1_0)
    (transpose S128x256 [1, 0] (m ((c : Thread nD τ).loc main_arg4)) transposes_S256x128_S128x256_1_0)
    (shapeCast S1x256 (m ((c : Thread nD τ).loc main_arg3)) shapeCasts_S256_S1x256)

/-- Layer 2's output as the second launch leaves it. -/
def h2K : Cert.Sage.Spec.F32 S50000x256 :=
  Cert.Sage.Spec.dense1 (Cert.Sage.Spec.mean256 (h1K m c) (sK m c) (dK m c)) (h1K m c)
    (transpose S256x256 [1, 0] (m ((c : Thread nD τ).loc main_arg5)) transposes_S256x256_S256x256_1_0)
    (transpose S256x256 [1, 0] (m ((c : Thread nD τ).loc main_arg7)) transposes_S256x256_S256x256_1_0)
    (shapeCast S1x256 (m ((c : Thread nD τ).loc main_arg6)) shapeCasts_S256_S1x256)

/-- The result as the third launch leaves it. -/
def outK : Cert.Sage.Spec.F32 S50000x40 :=
  Cert.Sage.Spec.lsm (Cert.Sage.Spec.dense2 (Cert.Sage.Spec.mean256 (h2K m c) (sK m c) (dK m c)) (h2K m c)
    (transpose S256x40 [1, 0] (m ((c : Thread nD τ).loc main_arg8)) transposes_S40x256_S256x40_1_0)
    (transpose S256x40 [1, 0] (m ((c : Thread nD τ).loc main_arg10)) transposes_S40x256_S256x40_1_0)
    (shapeCast S1x40 (m ((c : Thread nD τ).loc main_arg9)) shapeCasts_S40_S1x40))

/-- After the first launch: its output array holds layer 1. -/
theorem W2_h1 : W2 m ρ c (Proc.devRef .tc main_v26) = h1K m c := by
  refine (W2_arr m ρ c 5).trans ?_
  refine (Cert.Sage.Region0.final (V1 m ρ) c).trans ?_
  show Cert.Sage.Spec.dense0 (StableHlo.after hostOps0 (W0 m ρ c) (Proc.devRef .tc main_v22)) (StableHlo.after hostOps0 (W0 m ρ c) (Proc.devRef .tc main_arg0)) (StableHlo.after hostOps0 (W0 m ρ c) (Proc.devRef .tc main_v23))
    (StableHlo.after hostOps0 (W0 m ρ c) (Proc.devRef .tc main_v24)) (StableHlo.after hostOps0 (W0 m ρ c) (Proc.devRef .tc main_v25)) = _
  rw [s0_mean, s0_wl, s0_wr, s0_b, keep0_main_arg0]
  rfl

/-- What the first launch does not touch keeps the first stretch's contents. -/
theorem W2_src : W2 m ρ c (Proc.devRef .tc main_v1) = sK m c :=
  (W2_of_ne m ρ c main_v1 (by decide)).trans (s0_src _)
theorem W2_dst : W2 m ρ c (Proc.devRef .tc main_v3) = dK m c :=
  (W2_of_ne m ρ c main_v3 (by decide)).trans (s0_dst _)
theorem W2_arg5 : W2 m ρ c (Proc.devRef .tc main_arg5) = (m ((c : Thread nD τ).loc main_arg5)) :=
  (W2_of_ne m ρ c main_arg5 (by decide)).trans (keep0_main_arg5 _)
theorem W2_arg6 : W2 m ρ c (Proc.devRef .tc main_arg6) = (m ((c : Thread nD τ).loc main_arg6)) :=
  (W2_of_ne m ρ c main_arg6 (by decide)).trans (keep0_main_arg6 _)
theorem W2_arg7 : W2 m ρ c (Proc.devRef .tc main_arg7) = (m ((c : Thread nD τ).loc main_arg7)) :=
  (W2_of_ne m ρ c main_arg7 (by decide)).trans (keep0_main_arg7 _)
theorem W2_arg8 : W2 m ρ c (Proc.devRef .tc main_arg8) = (m ((c : Thread nD τ).loc main_arg8)) :=
  (W2_of_ne m ρ c main_arg8 (by decide)).trans (keep0_main_arg8 _)
theorem W2_arg9 : W2 m ρ c (Proc.devRef .tc main_arg9) = (m ((c : Thread nD τ).loc main_arg9)) :=
  (W2_of_ne m ρ c main_arg9 (by decide)).trans (keep0_main_arg9 _)
theorem W2_arg10 : W2 m ρ c (Proc.devRef .tc main_arg10) = (m ((c : Thread nD τ).loc main_arg10)) :=
  (W2_of_ne m ρ c main_arg10 (by decide)).trans (keep0_main_arg10 _)

/-- After the second launch: its output array holds layer 2. -/
theorem W4_h2 : W4 m ρ c (Proc.devRef .tc main_v49) = h2K m c := by
  refine (W4_arr m ρ c 5).trans ?_
  refine (Cert.Sage.Region1.final (V3 m ρ) c).trans ?_
  show Cert.Sage.Spec.dense1 (StableHlo.after hostOps1 (W2 m ρ c) (Proc.devRef .tc main_v45)) (StableHlo.after hostOps1 (W2 m ρ c) (Proc.devRef .tc main_v26)) (StableHlo.after hostOps1 (W2 m ρ c) (Proc.devRef .tc main_v46))
    (StableHlo.after hostOps1 (W2 m ρ c) (Proc.devRef .tc main_v47)) (StableHlo.after hostOps1 (W2 m ρ c) (Proc.devRef .tc main_v48)) = _
  rw [s1_mean, s1_wl, s1_wr, s1_b, keep1_main_v26, W2_h1, W2_src, W2_dst, W2_arg5, W2_arg6, W2_arg7]
  rfl

theorem W4_src : W4 m ρ c (Proc.devRef .tc main_v1) = sK m c :=
  (W4_of_ne m ρ c main_v1 (by decide)).trans ((keep1_main_v1 _).trans (W2_src m ρ c))
theorem W4_dst : W4 m ρ c (Proc.devRef .tc main_v3) = dK m c :=
  (W4_of_ne m ρ c main_v3 (by decide)).trans ((keep1_main_v3 _).trans (W2_dst m ρ c))
theorem W4_arg8 : W4 m ρ c (Proc.devRef .tc main_arg8) = (m ((c : Thread nD τ).loc main_arg8)) :=
  (W4_of_ne m ρ c main_arg8 (by decide)).trans ((keep1_main_arg8 _).trans (W2_arg8 m ρ c))
theorem W4_arg9 : W4 m ρ c (Proc.devRef .tc main_arg9) = (m ((c : Thread nD τ).loc main_arg9)) :=
  (W4_of_ne m ρ c main_arg9 (by decide)).trans ((keep1_main_arg9 _).trans (W2_arg9 m ρ c))
theorem W4_arg10 : W4 m ρ c (Proc.devRef .tc main_arg10) = (m ((c : Thread nD τ).loc main_arg10)) :=
  (W4_of_ne m ρ c main_arg10 (by decide)).trans ((keep1_main_arg10 _).trans (W2_arg10 m ρ c))

/-- After the third launch: the result array. -/
theorem W6_out : W6 m ρ c (Proc.devRef .tc main_v72) = outK m c := by
  refine (W6_arr m ρ c 5).trans ?_
  refine (Cert.Sage.Region2.final (V5 m ρ) c).trans ?_
  show Cert.Sage.Spec.lsm (Cert.Sage.Spec.dense2 (StableHlo.after hostOps2 (W4 m ρ c) (Proc.devRef .tc main_v68)) (StableHlo.after hostOps2 (W4 m ρ c) (Proc.devRef .tc main_v49)) (StableHlo.after hostOps2 (W4 m ρ c) (Proc.devRef .tc main_v69))
    (StableHlo.after hostOps2 (W4 m ρ c) (Proc.devRef .tc main_v70)) (StableHlo.after hostOps2 (W4 m ρ c) (Proc.devRef .tc main_v71))) = _
  rw [s2_mean, s2_wl, s2_wr, s2_b, keep2_main_v49, W4_h2, W4_src, W4_dst, W4_arg8, W4_arg9, W4_arg10]
  rfl

/-- The kernel's result is the whole network of the arguments: the bias rows are one matrix however laid out. -/
theorem outK_eq : outK m c
    = Cert.Sage.Spec.model (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold outK h2K h1K Cert.Sage.Spec.model Cert.Sage.Spec.out Cert.Sage.Spec.h2 Cert.Sage.Spec.h1
  rw [Cert.Sage.Spec.row_reshape_eq _ shapeCasts_S256_S1x256 Cert.ReferenceIdeal.Gen.bcast_S256_S1x256_1,
    Cert.Sage.Spec.row_reshape_eq _ shapeCasts_S256_S1x256 Cert.ReferenceIdeal.Gen.bcast_S256_S1x256_1,
    Cert.Sage.Spec.row_reshape_eq _ shapeCasts_S40_S1x40 Cert.ReferenceIdeal.Gen.bcast_S40_S1x40_1]

end Cert.Sage.KernelValue

end
-- ==== Proof.RefRun.lean ====
/-
  The idealized reference's run, read back layer by layer.

  The reference is a straight line of 124 host operations: three times the neighbour aggregation and the dense layer,
  then the log-softmax. Every weakly fair execution terminates with every buffer at the fold of the operations' results
  over the launch contents. The fold is split where a layer ends (after operation 40 and after operation 76), so that each
  layer's operations are read once, from the contents the layer finds, as that layer's function of them.
-/
import proofs.«180029_j1185410974147_1_alg».proof.Proof.Gen.ReferenceIdeal
import proofs.«180029_j1185410974147_1_alg».proof.Proof.Spec
import Idealize.ShloMosaic.Lib.StableHlo.Run

noncomputable section

namespace Cert.Sage.RefRun

open Cert.ReferenceIdeal Cert.ReferenceIdeal.Gen Idealize.ShloMosaic Idealize.ShloMosaic.TcCoe Idealize.SL.Sem Idealize.ShloMosaic.StableHlo
open Cert.Sage.Spec (F32 I32)

variable {F : FTy → Type} [FloatOps F]

/-- The first layer's operations: the edge array's two rows, the aggregation of the input features, the dense layer. -/
abbrev opsA : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_1 (constant S_ .f32 0x3F800000#32),
    unary main_cst_1 main_v14 (broadcastInDim S600000 ![] bcast_S_S600000 : (⟨S_, .f32⟩ : BufTy).Contents (Elt F) → (⟨S600000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S600000x1 ![0] bcast_S600000_S600000x1_0 : (⟨S600000, .i32⟩ : BufTy).Contents (Elt F) → (⟨S600000x1, .i32⟩ : BufTy).Contents (Elt F)),
    ternary main_v15 main_v16 main_v14 main_v17 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x256 [1, 0] · transposes_S256x128_S128x256_1_0) : (⟨S256x128, .f32⟩ : BufTy).Contents (Elt F) → (⟨S128x256, .f32⟩ : BufTy).Contents (Elt F)),
    binary main_v22 main_v23 main_v24 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg3 main_v25 (broadcastInDim S1x256 ![1] bcast_S256_S1x256_1 : (⟨S256, .f32⟩ : BufTy).Contents (Elt F) → (⟨S1x256, .f32⟩ : BufTy).Contents (Elt F)),
    unary main_v25 main_v26 (broadcastInDim S50000x256 ![0, 1] bcast_S1x256_S50000x256_0_1 : (⟨S1x256, .f32⟩ : BufTy).Contents (Elt F) → (⟨S50000x256, .f32⟩ : BufTy).Contents (Elt F)),
    binary main_v24 main_v26 main_v27 (addf : (⟨S50000x256, .f32⟩ : BufTy).Contents (Elt F) → (⟨S50000x256, .f32⟩ : BufTy).Contents (Elt F) → (⟨S50000x256, .f32⟩ : BufTy).Contents (Elt F)),
    unary main_arg4 main_v28 ((transpose S128x256 [1, 0] · transposes_S256x128_S128x256_1_0) : (⟨S256x128, .f32⟩ : BufTy).Contents (Elt F) → (⟨S128x256, .f32⟩ : BufTy).Contents (Elt F)),
    binary main_arg0 main_v28 main_v29 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    binary main_v27 main_v29 main_v30 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v30) (TRef.of (T := ⟨S50000x256, .f32⟩) main_call0_v0) (TRef.of (T := ⟨S50000x256, .f32⟩) main_v31) maximumf ]

/-- The second layer's operations. -/
abbrev opsB : List (HloOp τ sig (Elt F)) :=
  [ nullary main_c_4 (constantI S_ 32 0#32),
    unary main_c_4 main_v32 (broadcastInDim S600000 ![] bcast_S_S600000 : (⟨S_, .i32⟩ : BufTy).Contents (Elt F) → (⟨S600000, .i32⟩ : BufTy).Contents (Elt F)),
    binary main_v1 main_v32 main_v33 (cmpi .slt : (⟨S600000, .i32⟩ : BufTy).Contents (Elt F) → (⟨S600000, .i32⟩ : BufTy).Contents (Elt F) → (⟨S600000, .i1⟩ : BufTy).Contents (Elt F)),
    nullary main_c_5 (constantI S_ 32 50000#32),
    unary main_c_5 main_v34 (broadcastInDim S600000 ![] bcast_S_S600000 : (⟨S_, .i32⟩ : BufTy).Contents (Elt F) → (⟨S600000, .i32⟩ : BufTy).Contents (Elt F)),
    binary main_v1 main_v34 main_v35 (addi : (⟨S600000, .i32⟩ : BufTy).Contents (Elt F) → (⟨S600000, .i32⟩ : BufTy).Contents (Elt F) → (⟨S600000, .i32⟩ : BufTy).Contents (Elt F)),
    ternary main_v33 main_v35 main_v1 main_v36 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v36 main_v37 (broadcastInDim S600000x1 ![0] bcast_S600000_S600000x1_0 : (⟨S600000, .i32⟩ : BufTy).Contents (Elt F) → (⟨S600000x1, .i32⟩ : BufTy).Contents (Elt F)),
    binary main_v31 main_v37 main_v38 ((fun x i => Host.gather gather_S50000x256_S600000x1_S600000x256_1_0_n_n_0_1_1256 x i) : (⟨S50000x256, .f32⟩ : BufTy).Contents (Elt F) → (⟨S600000x1, .i32⟩ : BufTy).Contents (Elt F) → (⟨S600000x256, .f32⟩ : BufTy).Contents (Elt F)),
    nullary main_cst_6 (constant S_ .f32 0x00000000#32),
    unary main_cst_6 main_v39 (broadcastInDim S50000x256 ![] bcast_S_S50000x256 : (⟨S_, .f32⟩ : BufTy).Contents (Elt F) → (⟨S50000x256, .f32⟩ : BufTy).Contents (Elt F)),
    unary main_v3 main_v40 (broadcastInDim S600000x1 ![0] bcast_S600000_S600000x1_0 : (⟨S600000, .i32⟩ : BufTy).Contents (Elt F) → (⟨S600000x1, .i32⟩ : BufTy).Contents (Elt F)),
    ternary main_v39 main_v40 main_v38 main_v41 ((fun x i u => Host.scatterAdd scatter_S50000x256_S600000x1_S600000x256_1_0_0_1 x i u) : (⟨S50000x256, .f32⟩ : BufTy).Contents (Elt F) → (⟨S600000x1, .i32⟩ : BufTy).Contents (Elt F) → (⟨S600000x256, .f32⟩ : BufTy).Contents (Elt F) → (⟨S50000x256, .f32⟩ : BufTy).Contents (Elt F)),
    nullary main_cst_7 (constant S_ .f32 0x3F800000#32),
    unary main_cst_7 main_v42 (broadcastInDim S600000 ![] bcast_S_S600000 : (⟨S_, .f32⟩ : BufTy).Contents (Elt F) → (⟨S600000, .f32⟩ : BufTy).Contents (Elt F)),
    nullary main_cst_8 (constant S_ .f32 0x00000000#32),
    unary main_cst_8 main_v43 (broadcastInDim S50000 ![] bcast_S_S50000 : (⟨S_, .f32⟩ : BufTy).Contents (Elt F) → (⟨S50000, .f32⟩ : BufTy).Contents (Elt F)),
    unary main_v3 main_v44 (broadcastInDim S600000x1 ![0] bcast_S600000_S600000x1_0 : (⟨S600000, .i32⟩ : BufTy).Contents (Elt F) → (⟨S600000x1, .i32⟩ : BufTy).Contents (Elt F)),
    ternary main_v43 main_v44 main_v42 main_v45 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_9 (constant S_ .f32 0x3F800000#32),
    unary main_cst_9 main_v46 (broadcastInDim S50000 ![] bcast_S_S50000 : (⟨S_, .f32⟩ : BufTy).Contents (Elt F) → (⟨S50000, .f32⟩ : BufTy).Contents (Elt F)),
    binary main_v45 main_v46 main_v47 (maximumf : (⟨S50000, .f32⟩ : BufTy).Contents (Elt F) → (⟨S50000, .f32⟩ : BufTy).Contents (Elt F) → (⟨S50000, .f32⟩ : BufTy).Contents (Elt F)),
    unary main_v47 main_v48 (broadcastInDim S50000x1 ![0] bcast_S50000_S50000x1_0 : (⟨S50000, .f32⟩ : BufTy).Contents (Elt F) → (⟨S50000x1, .f32⟩ : BufTy).Contents (Elt F)),
    unary main_v48 main_v49 (broadcastInDim S50000x256 ![0, 1] bcast_S50000x1_S50000x256_0_1 : (⟨S50000x1, .f32⟩ : BufTy).Contents (Elt F) → (⟨S50000x256, .f32⟩ : BufTy).Contents (Elt F)),
    binary main_v41 main_v49 main_v50 (Host.divf : (⟨S50000x256, .f32⟩ : BufTy).Contents (Elt F) → (⟨S50000x256, .f32⟩ : BufTy).Contents (Elt F) → (⟨S50000x256, .f32⟩ : BufTy).Contents (Elt F)),
    unary main_arg5 main_v51 ((transpose S256x256 [1, 0] · transposes_S256x256_S256x256_1_0) : (⟨S256x256, .f32⟩ : BufTy).Contents (Elt F) → (⟨S256x256, .f32⟩ : BufTy).Contents (Elt F)),
    binary main_v50 main_v51 main_v52 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg6 main_v53 (broadcastInDim S1x256 ![1] bcast_S256_S1x256_1 : (⟨S256, .f32⟩ : BufTy).Contents (Elt F) → (⟨S1x256, .f32⟩ : BufTy).Contents (Elt F)),
    unary main_v53 main_v54 (broadcastInDim S50000x256 ![0, 1] bcast_S1x256_S50000x256_0_1 : (⟨S1x256, .f32⟩ : BufTy).Contents (Elt F) → (⟨S50000x256, .f32⟩ : BufTy).Contents (Elt F)),
    binary main_v52 main_v54 main_v55 (addf : (⟨S50000x256, .f32⟩ : BufTy).Contents (Elt F) → (⟨S50000x256, .f32⟩ : BufTy).Contents (Elt F) → (⟨S50000x256, .f32⟩ : BufTy).Contents (Elt F)),
    unary main_arg7 main_v56 ((transpose S256x256 [1, 0] · transposes_S256x256_S256x256_1_0) : (⟨S256x256, .f32⟩ : BufTy).Contents (Elt F) → (⟨S256x256, .f32⟩ : BufTy).Contents (Elt F)),
    binary main_v31 main_v56 main_v57 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v55 main_v57 main_v58 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v58) (TRef.of (T := ⟨S50000x256, .f32⟩) main_call1_v0) (TRef.of (T := ⟨S50000x256, .f32⟩) main_v59) maximumf ]

/-- The third layer's operations and the log-softmax. -/
abbrev opsC : List (HloOp τ sig (Elt F)) :=
  [ nullary main_c_10 (constantI S_ 32 0#32),
    unary main_c_10 main_v60 (broadcastInDim S600000 ![] bcast_S_S600000 : (⟨S_, .i32⟩ : BufTy).Contents (Elt F) → (⟨S600000, .i32⟩ : BufTy).Contents (Elt F)),
    binary main_v1 main_v60 main_v61 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v62 (broadcastInDim S600000 ![] bcast_S_S600000 : (⟨S_, .i32⟩ : BufTy).Contents (Elt F) → (⟨S600000, .i32⟩ : BufTy).Contents (Elt F)),
    binary main_v1 main_v62 main_v63 (addi : (⟨S600000, .i32⟩ : BufTy).Contents (Elt F) → (⟨S600000, .i32⟩ : BufTy).Contents (Elt F) → (⟨S600000, .i32⟩ : BufTy).Contents (Elt F)),
    ternary main_v61 main_v63 main_v1 main_v64 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v64 main_v65 (broadcastInDim S600000x1 ![0] bcast_S600000_S600000x1_0 : (⟨S600000, .i32⟩ : BufTy).Contents (Elt F) → (⟨S600000x1, .i32⟩ : BufTy).Contents (Elt F)),
    binary main_v59 main_v65 main_v66 ((fun x i => Host.gather gather_S50000x256_S600000x1_S600000x256_1_0_n_n_0_1_1256 x i) : (⟨S50000x256, .f32⟩ : BufTy).Contents (Elt F) → (⟨S600000x1, .i32⟩ : BufTy).Contents (Elt F) → (⟨S600000x256, .f32⟩ : BufTy).Contents (Elt F)),
    nullary main_cst_12 (constant S_ .f32 0x00000000#32),
    unary main_cst_12 main_v67 (broadcastInDim S50000x256 ![] bcast_S_S50000x256 : (⟨S_, .f32⟩ : BufTy).Contents (Elt F) → (⟨S50000x256, .f32⟩ : BufTy).Contents (Elt F)),
    unary main_v3 main_v68 (broadcastInDim S600000x1 ![0] bcast_S600000_S600000x1_0 : (⟨S600000, .i32⟩ : BufTy).Contents (Elt F) → (⟨S600000x1, .i32⟩ : BufTy).Contents (Elt F)),
    ternary main_v67 main_v68 main_v66 main_v69 ((fun x i u => Host.scatterAdd scatter_S50000x256_S600000x1_S600000x256_1_0_0_1 x i u) : (⟨S50000x256, .f32⟩ : BufTy).Contents (Elt F) → (⟨S600000x1, .i32⟩ : BufTy).Contents (Elt F) → (⟨S600000x256, .f32⟩ : BufTy).Contents (Elt F) → (⟨S50000x256, .f32⟩ : BufTy).Contents (Elt F)),
    nullary main_cst_13 (constant S_ .f32 0x3F800000#32),
    unary main_cst_13 main_v70 (broadcastInDim S600000 ![] bcast_S_S600000 : (⟨S_, .f32⟩ : BufTy).Contents (Elt F) → (⟨S600000, .f32⟩ : BufTy).Contents (Elt F)),
    nullary main_cst_14 (constant S_ .f32 0x00000000#32),
    unary main_cst_14 main_v71 (broadcastInDim S50000 ![] bcast_S_S50000 : (⟨S_, .f32⟩ : BufTy).Contents (Elt F) → (⟨S50000, .f32⟩ : BufTy).Contents (Elt F)),
    unary main_v3 main_v72 (broadcastInDim S600000x1 ![0] bcast_S600000_S600000x1_0 : (⟨S600000, .i32⟩ : BufTy).Contents (Elt F) → (⟨S600000x1, .i32⟩ : BufTy).Contents (Elt F)),
    ternary main_v71 main_v72 main_v70 main_v73 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_15 (constant S_ .f32 0x3F800000#32),
    unary main_cst_15 main_v74 (broadcastInDim S50000 ![] bcast_S_S50000 : (⟨S_, .f32⟩ : BufTy).Contents (Elt F) → (⟨S50000, .f32⟩ : BufTy).Contents (Elt F)),
    binary main_v73 main_v74 main_v75 (maximumf : (⟨S50000, .f32⟩ : BufTy).Contents (Elt F) → (⟨S50000, .f32⟩ : BufTy).Contents (Elt F) → (⟨S50000, .f32⟩ : BufTy).Contents (Elt F)),
    unary main_v75 main_v76 (broadcastInDim S50000x1 ![0] bcast_S50000_S50000x1_0 : (⟨S50000, .f32⟩ : BufTy).Contents (Elt F) → (⟨S50000x1, .f32⟩ : BufTy).Contents (Elt F)),
    unary main_v76 main_v77 (broadcastInDim S50000x256 ![0, 1] bcast_S50000x1_S50000x256_0_1 : (⟨S50000x1, .f32⟩ : BufTy).Contents (Elt F) → (⟨S50000x256, .f32⟩ : BufTy).Contents (Elt F)),
    binary main_v69 main_v77 main_v78 (Host.divf : (⟨S50000x256, .f32⟩ : BufTy).Contents (Elt F) → (⟨S50000x256, .f32⟩ : BufTy).Contents (Elt F) → (⟨S50000x256, .f32⟩ : BufTy).Contents (Elt F)),
    unary main_arg8 main_v79 ((transpose S256x40 [1, 0] · transposes_S40x256_S256x40_1_0) : (⟨S40x256, .f32⟩ : BufTy).Contents (Elt F) → (⟨S256x40, .f32⟩ : BufTy).Contents (Elt F)),
    binary main_v78 main_v79 main_v80 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg9 main_v81 (broadcastInDim S1x40 ![1] bcast_S40_S1x40_1 : (⟨S40, .f32⟩ : BufTy).Contents (Elt F) → (⟨S1x40, .f32⟩ : BufTy).Contents (Elt F)),
    unary main_v81 main_v82 (broadcastInDim S50000x40 ![0, 1] bcast_S1x40_S50000x40_0_1 : (⟨S1x40, .f32⟩ : BufTy).Contents (Elt F) → (⟨S50000x40, .f32⟩ : BufTy).Contents (Elt F)),
    binary main_v80 main_v82 main_v83 (addf : (⟨S50000x40, .f32⟩ : BufTy).Contents (Elt F) → (⟨S50000x40, .f32⟩ : BufTy).Contents (Elt F) → (⟨S50000x40, .f32⟩ : BufTy).Contents (Elt F)),
    unary main_arg10 main_v84 ((transpose S256x40 [1, 0] · transposes_S40x256_S256x40_1_0) : (⟨S40x256, .f32⟩ : BufTy).Contents (Elt F) → (⟨S256x40, .f32⟩ : BufTy).Contents (Elt F)),
    binary main_v59 main_v84 main_v85 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    binary main_v83 main_v85 main_v86 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call2_cst) (constant S_ .f32 0xFF800000#32),
    TRef.binary (TRef.of (T := ⟨S50000x40, .f32⟩) main_v86) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v86) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v87) subf ]

/-- The third layer's operations up to the class scores, and the log-softmax's. -/
abbrev opsC1 : List (HloOp τ sig (Elt F)) :=
  [ nullary main_c_10 (constantI S_ 32 0#32),
    unary main_c_10 main_v60 (broadcastInDim S600000 ![] bcast_S_S600000 : (⟨S_, .i32⟩ : BufTy).Contents (Elt F) → (⟨S600000, .i32⟩ : BufTy).Contents (Elt F)),
    binary main_v1 main_v60 main_v61 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v62 (broadcastInDim S600000 ![] bcast_S_S600000 : (⟨S_, .i32⟩ : BufTy).Contents (Elt F) → (⟨S600000, .i32⟩ : BufTy).Contents (Elt F)),
    binary main_v1 main_v62 main_v63 (addi : (⟨S600000, .i32⟩ : BufTy).Contents (Elt F) → (⟨S600000, .i32⟩ : BufTy).Contents (Elt F) → (⟨S600000, .i32⟩ : BufTy).Contents (Elt F)),
    ternary main_v61 main_v63 main_v1 main_v64 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v64 main_v65 (broadcastInDim S600000x1 ![0] bcast_S600000_S600000x1_0 : (⟨S600000, .i32⟩ : BufTy).Contents (Elt F) → (⟨S600000x1, .i32⟩ : BufTy).Contents (Elt F)),
    binary main_v59 main_v65 main_v66 ((fun x i => Host.gather gather_S50000x256_S600000x1_S600000x256_1_0_n_n_0_1_1256 x i) : (⟨S50000x256, .f32⟩ : BufTy).Contents (Elt F) → (⟨S600000x1, .i32⟩ : BufTy).Contents (Elt F) → (⟨S600000x256, .f32⟩ : BufTy).Contents (Elt F)),
    nullary main_cst_12 (constant S_ .f32 0x00000000#32),
    unary main_cst_12 main_v67 (broadcastInDim S50000x256 ![] bcast_S_S50000x256 : (⟨S_, .f32⟩ : BufTy).Contents (Elt F) → (⟨S50000x256, .f32⟩ : BufTy).Contents (Elt F)),
    unary main_v3 main_v68 (broadcastInDim S600000x1 ![0] bcast_S600000_S600000x1_0 : (⟨S600000, .i32⟩ : BufTy).Contents (Elt F) → (⟨S600000x1, .i32⟩ : BufTy).Contents (Elt F)),
    ternary main_v67 main_v68 main_v66 main_v69 ((fun x i u => Host.scatterAdd scatter_S50000x256_S600000x1_S600000x256_1_0_0_1 x i u) : (⟨S50000x256, .f32⟩ : BufTy).Contents (Elt F) → (⟨S600000x1, .i32⟩ : BufTy).Contents (Elt F) → (⟨S600000x256, .f32⟩ : BufTy).Contents (Elt F) → (⟨S50000x256, .f32⟩ : BufTy).Contents (Elt F)),
    nullary main_cst_13 (constant S_ .f32 0x3F800000#32),
    unary main_cst_13 main_v70 (broadcastInDim S600000 ![] bcast_S_S600000 : (⟨S_, .f32⟩ : BufTy).Contents (Elt F) → (⟨S600000, .f32⟩ : BufTy).Contents (Elt F)),
    nullary main_cst_14 (constant S_ .f32 0x00000000#32),
    unary main_cst_14 main_v71 (broadcastInDim S50000 ![] bcast_S_S50000 : (⟨S_, .f32⟩ : BufTy).Contents (Elt F) → (⟨S50000, .f32⟩ : BufTy).Contents (Elt F)),
    unary main_v3 main_v72 (broadcastInDim S600000x1 ![0] bcast_S600000_S600000x1_0 : (⟨S600000, .i32⟩ : BufTy).Contents (Elt F) → (⟨S600000x1, .i32⟩ : BufTy).Contents (Elt F)),
    ternary main_v71 main_v72 main_v70 main_v73 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_15 (constant S_ .f32 0x3F800000#32),
    unary main_cst_15 main_v74 (broadcastInDim S50000 ![] bcast_S_S50000 : (⟨S_, .f32⟩ : BufTy).Contents (Elt F) → (⟨S50000, .f32⟩ : BufTy).Contents (Elt F)),
    binary main_v73 main_v74 main_v75 (maximumf : (⟨S50000, .f32⟩ : BufTy).Contents (Elt F) → (⟨S50000, .f32⟩ : BufTy).Contents (Elt F) → (⟨S50000, .f32⟩ : BufTy).Contents (Elt F)),
    unary main_v75 main_v76 (broadcastInDim S50000x1 ![0] bcast_S50000_S50000x1_0 : (⟨S50000, .f32⟩ : BufTy).Contents (Elt F) → (⟨S50000x1, .f32⟩ : BufTy).Contents (Elt F)),
    unary main_v76 main_v77 (broadcastInDim S50000x256 ![0, 1] bcast_S50000x1_S50000x256_0_1 : (⟨S50000x1, .f32⟩ : BufTy).Contents (Elt F) → (⟨S50000x256, .f32⟩ : BufTy).Contents (Elt F)),
    binary main_v69 main_v77 main_v78 (Host.divf : (⟨S50000x256, .f32⟩ : BufTy).Contents (Elt F) → (⟨S50000x256, .f32⟩ : BufTy).Contents (Elt F) → (⟨S50000x256, .f32⟩ : BufTy).Contents (Elt F)),
    unary main_arg8 main_v79 ((transpose S256x40 [1, 0] · transposes_S40x256_S256x40_1_0) : (⟨S40x256, .f32⟩ : BufTy).Contents (Elt F) → (⟨S256x40, .f32⟩ : BufTy).Contents (Elt F)),
    binary main_v78 main_v79 main_v80 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg9 main_v81 (broadcastInDim S1x40 ![1] bcast_S40_S1x40_1 : (⟨S40, .f32⟩ : BufTy).Contents (Elt F) → (⟨S1x40, .f32⟩ : BufTy).Contents (Elt F)),
    unary main_v81 main_v82 (broadcastInDim S50000x40 ![0, 1] bcast_S1x40_S50000x40_0_1 : (⟨S1x40, .f32⟩ : BufTy).Contents (Elt F) → (⟨S50000x40, .f32⟩ : BufTy).Contents (Elt F)),
    binary main_v80 main_v82 main_v83 (addf : (⟨S50000x40, .f32⟩ : BufTy).Contents (Elt F) → (⟨S50000x40, .f32⟩ : BufTy).Contents (Elt F) → (⟨S50000x40, .f32⟩ : BufTy).Contents (Elt F)),
    unary main_arg10 main_v84 ((transpose S256x40 [1, 0] · transposes_S40x256_S256x40_1_0) : (⟨S40x256, .f32⟩ : BufTy).Contents (Elt F) → (⟨S256x40, .f32⟩ : BufTy).Contents (Elt F)),
    binary main_v59 main_v84 main_v85 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    binary main_v83 main_v85 main_v86 (addf : (⟨S50000x40, .f32⟩ : BufTy).Contents (Elt F) → (⟨S50000x40, .f32⟩ : BufTy).Contents (Elt F) → (⟨S50000x40, .f32⟩ : BufTy).Contents (Elt F)) ]
abbrev opsC2 : List (HloOp τ sig (Elt F)) :=
  [ TRef.nullary (TRef.of (T := ⟨S_, .f32⟩) main_call2_cst) (constant S_ .f32 0xFF800000#32),
    TRef.binary (TRef.of (T := ⟨S50000x40, .f32⟩) main_v86) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v86) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v87) subf ]
theorem opsC_split : (opsC : List (HloOp τ sig (Elt F))) = opsC1 ++ opsC2 := rfl

/-- All of the program's operations, in order. -/
abbrev ops : List (HloOp τ sig (Elt F)) := opsA ++ (opsB ++ opsC)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub ..⟩
set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub ..⟩
set_option maxRecDepth 8192 in
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsA_sub op h
    · rcases List.mem_append.mp h with h | h
      · exact List.forall_iff_forall_mem.mp opsB_sub op h
      · exact List.forall_iff_forall_mem.mp opsC_sub op h

/-- The fold over a list laid end to end is the folds in turn. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem ops_fresh : ∀ op ∈ (ops : List (HloOp τ sig (Elt F))), op.fresh = ∅ := by
  intro op h
  rcases List.mem_append.mp h with h | h
  · (repeat (cases h with | head => rfl | tail _ h => ?_)); exact nomatch h
  · rcases List.mem_append.mp h with h | h
    · (repeat (cases h with | head => rfl | tail _ h => ?_)); exact nomatch h
    · (repeat (cases h with | head => rfl | tail _ h => ?_)); exact nomatch h

set_option maxRecDepth 8192 in
/-- Every weakly fair execution terminates with every buffer at the three layers' folds, in turn, over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after opsC (after opsB (after opsA (launchContents m c))) (Proc.devRef .tc b) :=
  (θ_run defs _ _).mono (fun _ h c b => (h c b).trans (by rw [after_append, after_append]))
    (run_seq scopedRefs_eq scopedSems_eq defs main (fun _ => ops) main_eq (fun _ => ops_sub) m ρ (fun _ => ops_fresh))

end Cert.Sage.RefRun

end
-- ==== Proof.RefStage.lean ====
/-
  The reference's three layers read off its run.

  Each layer's operations, folded over the contents the layer finds, leave in the layer's result buffer that layer's
  function of the buffers it reads, and leave alone the buffers later layers still need (the two rows of the edge array,
  the later layers' weights). Chained from the launch contents, the result buffer ends at the whole network of the
  arguments, and every argument as launched.
-/
import proofs.«180029_j1185410974147_1_alg».proof.Proof.RefRun

set_option maxRecDepth 16384

noncomputable section

namespace Cert.Sage.RefStage

open Cert.ReferenceIdeal Cert.ReferenceIdeal.Gen Idealize.ShloMosaic Idealize.ShloMosaic.TcCoe Idealize.SL.Sem Idealize.ShloMosaic.StableHlo
open Cert.Sage.RefRun

variable (W : Valuation τ sig (Elt Ideal))

/-! ## Layer 1 -/

theorem stageA_h1 : after opsA W (Proc.devRef .tc main_v31)
    = Cert.Sage.Spec.h1 (W (Proc.devRef .tc main_arg0)) (W (Proc.devRef .tc main_arg1)) (W (Proc.devRef .tc main_arg2)) (W (Proc.devRef .tc main_arg3)) (W (Proc.devRef .tc main_arg4)) := by
  after_results_simp <;> rfl
theorem stageA_src : after opsA W (Proc.devRef .tc main_v1) = Cert.Sage.Spec.src (W (Proc.devRef .tc main_arg1)) := by
  after_results_simp <;> rfl
theorem stageA_dst : after opsA W (Proc.devRef .tc main_v3) = Cert.Sage.Spec.dst (W (Proc.devRef .tc main_arg1)) := by
  after_results_simp <;> rfl
theorem keepA_main_arg0 : after opsA W (Proc.devRef .tc main_arg0) = W (Proc.devRef .tc main_arg0) := by after_results_simp <;> rfl
theorem keepA_main_arg1 : after opsA W (Proc.devRef .tc main_arg1) = W (Proc.devRef .tc main_arg1) := by after_results_simp <;> rfl
theorem keepA_main_arg2 : after opsA W (Proc.devRef .tc main_arg2) = W (Proc.devRef .tc main_arg2) := by after_results_simp <;> rfl
theorem keepA_main_arg3 : after opsA W (Proc.devRef .tc main_arg3) = W (Proc.devRef .tc main_arg3) := by after_results_simp <;> rfl
theorem keepA_main_arg4 : after opsA W (Proc.devRef .tc main_arg4) = W (Proc.devRef .tc main_arg4) := by after_results_simp <;> rfl
theorem keepA_main_arg5 : after opsA W (Proc.devRef .tc main_arg5) = W (Proc.devRef .tc main_arg5) := by after_results_simp <;> rfl
theorem keepA_main_arg6 : after opsA W (Proc.devRef .tc main_arg6) = W (Proc.devRef .tc main_arg6) := by after_results_simp <;> rfl
theorem keepA_main_arg7 : after opsA W (Proc.devRef .tc main_arg7) = W (Proc.devRef .tc main_arg7) := by after_results_simp <;> rfl
theorem keepA_main_arg8 : after opsA W (Proc.devRef .tc main_arg8) = W (Proc.devRef .tc main_arg8) := by after_results_simp <;> rfl
theorem keepA_main_arg9 : after opsA W (Proc.devRef .tc main_arg9) = W (Proc.devRef .tc main_arg9) := by after_results_simp <;> rfl
theorem keepA_main_arg10 : after opsA W (Proc.devRef .tc main_arg10) = W (Proc.devRef .tc main_arg10) := by after_results_simp <;> rfl

/-! ## Layer 2 -/

theorem stageB_h2 : after opsB W (Proc.devRef .tc main_v59)
    = Cert.Sage.Spec.h2 (W (Proc.devRef .tc main_v31)) (W (Proc.devRef .tc main_v1)) (W (Proc.devRef .tc main_v3)) (W (Proc.devRef .tc main_arg5)) (W (Proc.devRef .tc main_arg6)) (W (Proc.devRef .tc main_arg7)) := by
  after_results_simp <;> rfl
theorem keepB_main_v1 : after opsB W (Proc.devRef .tc main_v1) = W (Proc.devRef .tc main_v1) := by after_results_simp <;> rfl
theorem keepB_main_v3 : after opsB W (Proc.devRef .tc main_v3) = W (Proc.devRef .tc main_v3) := by after_results_simp <;> rfl
theorem keepB_main_arg0 : after opsB W (Proc.devRef .tc main_arg0) = W (Proc.devRef .tc main_arg0) := by after_results_simp <;> rfl
theorem keepB_main_arg1 : after opsB W (Proc.devRef .tc main_arg1) = W (Proc.devRef .tc main_arg1) := by after_results_simp <;> rfl
theorem keepB_main_arg2 : after opsB W (Proc.devRef .tc main_arg2) = W (Proc.devRef .tc main_arg2) := by after_results_simp <;> rfl
theorem keepB_main_arg3 : after opsB W (Proc.devRef .tc main_arg3) = W (Proc.devRef .tc main_arg3) := by after_results_simp <;> rfl
theorem keepB_main_arg4 : after opsB W (Proc.devRef .tc main_arg4) = W (Proc.devRef .tc main_arg4) := by after_results_simp <;> rfl
theorem keepB_main_arg5 : after opsB W (Proc.devRef .tc main_arg5) = W (Proc.devRef .tc main_arg5) := by after_results_simp <;> rfl
theorem keepB_main_arg6 : after opsB W (Proc.devRef .tc main_arg6) = W (Proc.devRef .tc main_arg6) := by after_results_simp <;> rfl
theorem keepB_main_arg7 : after opsB W (Proc.devRef .tc main_arg7) = W (Proc.devRef .tc main_arg7) := by after_results_simp <;> rfl
theorem keepB_main_arg8 : after opsB W (Proc.devRef .tc main_arg8) = W (Proc.devRef .tc main_arg8) := by after_results_simp <;> rfl
theorem keepB_main_arg9 : after opsB W (Proc.devRef .tc main_arg9) = W (Proc.devRef .tc main_arg9) := by after_results_simp <;> rfl
theorem keepB_main_arg10 : after opsB W (Proc.devRef .tc main_arg10) = W (Proc.devRef .tc main_arg10) := by after_results_simp <;> rfl

/-! ## Layer 3 and the log-softmax -/

theorem stageC1_scores : after opsC1 W (Proc.devRef .tc main_v86)
    = Cert.Sage.Spec.dense2 (Cert.Sage.Spec.mean256 (W (Proc.devRef .tc main_v59)) (W (Proc.devRef .tc main_v1)) (W (Proc.devRef .tc main_v3)))
        (W (Proc.devRef .tc main_v59)) (transpose S256x40 [1, 0] (W (Proc.devRef .tc main_arg8)) transposes_S40x256_S256x40_1_0)
        (transpose S256x40 [1, 0] (W (Proc.devRef .tc main_arg10)) transposes_S40x256_S256x40_1_0)
        (broadcastInDim S1x40 ![1] bcast_S40_S1x40_1 (W (Proc.devRef .tc main_arg9))) := by
  after_results_simp <;> rfl
/-- Contents carried to a buffer's own type and back are the contents. -/
theorem ofBuf_toBuf {Val : EltTy → Type} {T : BufTy} (x : TRef sig T) (v : T.Contents Val) : x.ofBuf (x.toBuf v) = v := by
  obtain ⟨r, h, h1, h2⟩ := x
  subst h
  rfl

theorem stageC2_lsm : after opsC2 W (Proc.devRef .tc main_v87) = Cert.Sage.Spec.lsm (W (Proc.devRef .tc main_v86)) := by
  after_results_simp
  simp only [ofBuf_toBuf]
  rfl
theorem stageC_out : after opsC W (Proc.devRef .tc main_v87)
    = Cert.Sage.Spec.out (W (Proc.devRef .tc main_v59)) (W (Proc.devRef .tc main_v1)) (W (Proc.devRef .tc main_v3)) (W (Proc.devRef .tc main_arg8)) (W (Proc.devRef .tc main_arg9)) (W (Proc.devRef .tc main_arg10)) := by
  rw [opsC_split, after_append, stageC2_lsm, stageC1_scores]
  first | rfl | skip
theorem keepC_main_arg0 : after opsC W (Proc.devRef .tc main_arg0) = W (Proc.devRef .tc main_arg0) := by after_results_simp <;> rfl
theorem keepC_main_arg1 : after opsC W (Proc.devRef .tc main_arg1) = W (Proc.devRef .tc main_arg1) := by after_results_simp <;> rfl
theorem keepC_main_arg2 : after opsC W (Proc.devRef .tc main_arg2) = W (Proc.devRef .tc main_arg2) := by after_results_simp <;> rfl
theorem keepC_main_arg3 : after opsC W (Proc.devRef .tc main_arg3) = W (Proc.devRef .tc main_arg3) := by after_results_simp <;> rfl
theorem keepC_main_arg4 : after opsC W (Proc.devRef .tc main_arg4) = W (Proc.devRef .tc main_arg4) := by after_results_simp <;> rfl
theorem keepC_main_arg5 : after opsC W (Proc.devRef .tc main_arg5) = W (Proc.devRef .tc main_arg5) := by after_results_simp <;> rfl
theorem keepC_main_arg6 : after opsC W (Proc.devRef .tc main_arg6) = W (Proc.devRef .tc main_arg6) := by after_results_simp <;> rfl
theorem keepC_main_arg7 : after opsC W (Proc.devRef .tc main_arg7) = W (Proc.devRef .tc main_arg7) := by after_results_simp <;> rfl
theorem keepC_main_arg8 : after opsC W (Proc.devRef .tc main_arg8) = W (Proc.devRef .tc main_arg8) := by after_results_simp <;> rfl
theorem keepC_main_arg9 : after opsC W (Proc.devRef .tc main_arg9) = W (Proc.devRef .tc main_arg9) := by after_results_simp <;> rfl
theorem keepC_main_arg10 : after opsC W (Proc.devRef .tc main_arg10) = W (Proc.devRef .tc main_arg10) := by after_results_simp <;> rfl

/-! ## The three layers chained -/

variable (m : (ℓ : Loc nD τ sig) → Buf (Elt Ideal) ℓ) (c : Dev nD)

/-- The result buffer after the three layers, from the launch contents: the whole network of the arguments. -/
theorem result_eq :
    after opsC (after opsB (after opsA (launchContents m c))) (Proc.devRef .tc main_v87)
      = Cert.Sage.Spec.model (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  rw [stageC_out, stageB_h2, keepB_main_v1, keepB_main_v3, keepB_main_arg8, keepB_main_arg9, keepB_main_arg10,
    stageA_h1, stageA_src, stageA_dst, keepA_main_arg5, keepA_main_arg6, keepA_main_arg7, keepA_main_arg8, keepA_main_arg9,
    keepA_main_arg10]
  first | rfl | skip

theorem kept_main_arg0 : after opsC (after opsB (after opsA (launchContents m c))) (Proc.devRef .tc main_arg0) = m ((c.tc : Thread nD τ).loc main_arg0) := by
  rw [keepC_main_arg0, keepB_main_arg0, keepA_main_arg0]
theorem kept_main_arg1 : after opsC (after opsB (after opsA (launchContents m c))) (Proc.devRef .tc main_arg1) = m ((c.tc : Thread nD τ).loc main_arg1) := by
  rw [keepC_main_arg1, keepB_main_arg1, keepA_main_arg1]
theorem kept_main_arg2 : after opsC (after opsB (after opsA (launchContents m c))) (Proc.devRef .tc main_arg2) = m ((c.tc : Thread nD τ).loc main_arg2) := by
  rw [keepC_main_arg2, keepB_main_arg2, keepA_main_arg2]
theorem kept_main_arg3 : after opsC (after opsB (after opsA (launchContents m c))) (Proc.devRef .tc main_arg3) = m ((c.tc : Thread nD τ).loc main_arg3) := by
  rw [keepC_main_arg3, keepB_main_arg3, keepA_main_arg3]
theorem kept_main_arg4 : after opsC (after opsB (after opsA (launchContents m c))) (Proc.devRef .tc main_arg4) = m ((c.tc : Thread nD τ).loc main_arg4) := by
  rw [keepC_main_arg4, keepB_main_arg4, keepA_main_arg4]
theorem kept_main_arg5 : after opsC (after opsB (after opsA (launchContents m c))) (Proc.devRef .tc main_arg5) = m ((c.tc : Thread nD τ).loc main_arg5) := by
  rw [keepC_main_arg5, keepB_main_arg5, keepA_main_arg5]
theorem kept_main_arg6 : after opsC (after opsB (after opsA (launchContents m c))) (Proc.devRef .tc main_arg6) = m ((c.tc : Thread nD τ).loc main_arg6) := by
  rw [keepC_main_arg6, keepB_main_arg6, keepA_main_arg6]
theorem kept_main_arg7 : after opsC (after opsB (after opsA (launchContents m c))) (Proc.devRef .tc main_arg7) = m ((c.tc : Thread nD τ).loc main_arg7) := by
  rw [keepC_main_arg7, keepB_main_arg7, keepA_main_arg7]
theorem kept_main_arg8 : after opsC (after opsB (after opsA (launchContents m c))) (Proc.devRef .tc main_arg8) = m ((c.tc : Thread nD τ).loc main_arg8) := by
  rw [keepC_main_arg8, keepB_main_arg8, keepA_main_arg8]
theorem kept_main_arg9 : after opsC (after opsB (after opsA (launchContents m c))) (Proc.devRef .tc main_arg9) = m ((c.tc : Thread nD τ).loc main_arg9) := by
  rw [keepC_main_arg9, keepB_main_arg9, keepA_main_arg9]
theorem kept_main_arg10 : after opsC (after opsB (after opsA (launchContents m c))) (Proc.devRef .tc main_arg10) = m ((c.tc : Thread nD τ).loc main_arg10) := by
  rw [keepC_main_arg10, keepB_main_arg10, keepA_main_arg10]

/-- The reference's run with its result named: every weakly fair execution terminates with the result buffer at the whole
    network of the arguments and every argument as launched. -/
theorem run (ρ : Dev nD → PrngReg) :
    θ_run defs (onTc (τ := τ) (main (F := Ideal))) ⟨m, fun _ => 0, ρ⟩ fun r => ∀ c : Dev nD,
      r.2.mem ((c.tc : Thread nD τ).loc main_v87)
        = Cert.Sage.Spec.model (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v87).trans (result_eq m c),
      (h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c),
      (h c main_arg6).trans (kept_main_arg6 m c),
      (h c main_arg7).trans (kept_main_arg7 m c),
      (h c main_arg8).trans (kept_main_arg8 m c),
      (h c main_arg9).trans (kept_main_arg9 m c),
      (h c main_arg10).trans (kept_main_arg10 m c)⟩)
    (Cert.Sage.RefRun.run m ρ)

end Cert.Sage.RefStage

end
-- ==== Proof.lean ====
/-
  A three-layer mean-aggregating graph network (50000 nodes, 600000 edges; 128 → 256 → 256 → 40 features, the last layer
  through a row-wise log-softmax): the kernel computes each layer's dense part  mean · WLᵀ + h · WRᵀ + b  on the vector
  unit, 2000 rows at a time, from operands rounded to a narrower float format, and leaves the neighbour aggregation to
  host operations; the reference is the same network on the host.

  On the extended reals the two programs are one function of the arguments. The aggregation is spelt identically on both
  sides. Rounding is the identity. A matrix product accumulated into zero is the sum over the contracted index, as the
  host's product is. The kernel adds the two products and then the bias, the reference the first product, the bias, then
  the second product: addition of extended reals is commutative and associative, so no finiteness of the inputs is needed.
  The kernel lays the bias out as a one-row matrix by a reshape, the reference by a broadcast: one matrix. The reference's
  log-softmax takes each row's maximum once more against −∞ and starts its row sum from zero, neither of which changes
  anything. A row's result depends on that row of the operands only, so computing 2000 rows at a time and writing them
  back where they belong leaves the whole array.

  The ideal pass rewrote nothing, so the idealized kernel is the kernel's own text read on the extended reals.
-/
import proofs.«180029_j1185410974147_1_alg».proof.Defs
import proofs.«180029_j1185410974147_1_alg».proof.Proof.Gen.Kernel
import proofs.«180029_j1185410974147_1_alg».proof.Proof.Gen.Kernel.Frame
import proofs.«180029_j1185410974147_1_alg».proof.Proof.Gen.KernelIdeal
import proofs.«180029_j1185410974147_1_alg».proof.Proof.Gen.KernelIdeal.Frame
import proofs.«180029_j1185410974147_1_alg».proof.Proof.Gen.ReferenceIdeal
import proofs.«180029_j1185410974147_1_alg».proof.Proof.Gen.Pre_finite_inputs
import proofs.«180029_j1185410974147_1_alg».proof.Proof.KernelRun
import proofs.«180029_j1185410974147_1_alg».proof.Proof.KernelValue
import proofs.«180029_j1185410974147_1_alg».proof.Proof.RefStage
import Idealize.ShloMosaic.Adequacy
import Idealize.ShloMosaic.Init

noncomputable section

namespace Cert.Proof

open Idealize.ShloMosaic Idealize.SL.Sem

/-- The kernel as printed, and read on the extended reals, terminates and leaves its arguments alone. -/
theorem frame_k : Cert.frame_Kernel := fun m ρ _ => Cert.Kernel.Gen.frame m ρ
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.Sage.RefStage.run m ρ)

/-- From memories agreeing on the arguments both programs end with the result array at the network of the arguments. -/
theorem algebraic : Cert.algebraic_KernelIdeal_ReferenceIdeal := by
  intro m ρ m' ρ' _ hagree
  refine ⟨fun c => Cert.Sage.KernelValue.outK m c, ?_, ?_⟩
  · exact (θ_run Cert.KernelIdeal.defs _ _).mono
      (fun r h c => ⟨(h c).1.trans (Cert.Sage.KernelValue.W6_out m ρ c), (h c).2⟩) (Cert.Sage.KernelRun.run_result m ρ)
  · refine (θ_run Cert.ReferenceIdeal.defs _ _).mono (fun r h c => ⟨(h c).1.trans ?_, (h c).2⟩) (Cert.Sage.RefStage.run m' ρ')
    obtain ⟨a0, a1, a2, a3, a4, a5, a6, a7, a8, a9, a10⟩ := hagree c
    rw [a0, a1, a2, a3, a4, a5, a6, a7, a8, a9, a10]
    exact (Cert.Sage.KernelValue.outK_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
